-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x16 : Shape := ⟨2, ![128, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S2x3200000 : Shape := ⟨2, ![2, 3200000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S16 .f32) (main_arg5 : FVec F S16x1 .f32) (main_arg6 : FVec F S1 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x1 .f32 := Host.absf main_arg5
  let main_cst_8 : FVec F S_ .f32 := constant S_ .f32 0x7F800000#32
  let main_v25 : FVec F S16x1 .f32 := broadcastInDim S16x1 ![] bcast_S_S16x1 main_cst_8
  let main_v26 : IVec S16x1 1 := cmpf .olt main_v24 main_v25
  let main_c_9 : IVec S_ 1 := constantI S_ 1 1#1
  let main_v27 : IVec S_ 1 := (fun x v => Host.reduce IntOp.andi x v reducesTo_S16x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : FVec F S128x16 .f32) (main_arg2 : FVec F S16 .f32) (main_arg3 : FVec F S16x16 .f32) (main_arg4 : FVec F S16 .f32) (main_arg5 : FVec F S16x1 .f32) (main_arg6 : FVec F S1 .f32) (main_arg7 : IVec S2x3200000 32) (main_arg8 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg1
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg3
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg4 main_arg5 main_arg6 main_v13 main_v16
-- ==== Kernel.lean ====
abbrev S100000x128 : Shape := ⟨2, ![100000, 128]⟩
abbrev S128x16 : Shape := ⟨2, ![128, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S10000x128 : Shape := ⟨2, ![10000, 128]⟩
abbrev S10000x16 : Shape := ⟨2, ![10000, 16]⟩
abbrev S3300000x16 : Shape := ⟨2, ![3300000, 16]⟩
abbrev S1x16 : Shape := ⟨2, ![1, 16]⟩
abbrev S1024x16 : Shape := ⟨2, ![1024, 16]⟩
abbrev S100000x1 : Shape := ⟨2, ![100000, 1]⟩
abbrev S1x1 : Shape := ⟨2, ![1, 1]⟩
abbrev S1024x1 : Shape := ⟨2, ![1024, 1]⟩

abbrev nBuf : Space → Nat
  | .hbm => 92
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S128x16, .f32⟩
  | .hbm, ⟨2, _⟩ => ⟨S16, .f32⟩
  | .hbm, ⟨3, _⟩ => ⟨S16x16, .f32⟩
  | .hbm, ⟨4, _⟩ => ⟨S16, .f32⟩
  | .hbm, ⟨5, _⟩ => ⟨S16x1, .f32⟩
  | .hbm, ⟨6, _⟩ => ⟨S1, .f32⟩
  | .hbm, ⟨7, _⟩ => ⟨S2x3200000, .i32⟩
  | .hbm, ⟨8, _⟩ => ⟨S100000, .i32⟩
  | .hbm, ⟨9, _⟩ => ⟨S100000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S1x3200000, .i32⟩
  | .hbm, ⟨14, _⟩ => ⟨S3200000, .i32⟩
  | .hbm, ⟨15, _⟩ => ⟨S3300000, .i32⟩
  | .hbm, ⟨16, _⟩ => ⟨S_, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S_, .i32⟩
  | .hbm, ⟨69, _⟩ => ⟨S3300000, .i32⟩
  | .hbm, ⟨70, _⟩ => ⟨S3300000, .i1⟩
  | .hbm, ⟨71, _⟩ => ⟨S_, .i32⟩
  | .hbm, ⟨72, _⟩ => ⟨S3300000, .i32⟩
  | .hbm, ⟨73, _⟩ => ⟨S3300000, .i32⟩
  | .hbm, ⟨74, _⟩ => ⟨S3300000, .i32⟩
  | .hbm, ⟨75, _⟩ => ⟨S3300000x1, .i32⟩
  | .hbm, ⟨76, _⟩ => ⟨S3300000x16, .f32⟩
  | .hbm, ⟨77, _⟩ => ⟨S3300000x1, .f32⟩
  | .hbm, ⟨78, _⟩ => ⟨S3300000x16, .f32⟩
  | .hbm, ⟨79, _⟩ => ⟨S3300000x16, .f32⟩
  | .hbm, ⟨80, _⟩ => ⟨S_, .f32⟩
  | .hbm, ⟨81, _⟩ => ⟨S100000x16, .f32⟩
  | .hbm, ⟨82, _⟩ => ⟨S3300000x1, .i32⟩
  | .hbm, ⟨83, _⟩ => ⟨S100000x16, .f32⟩
  | .hbm, ⟨84, _⟩ => ⟨S1x16, .f32⟩
  | .hbm, ⟨85, _⟩ => ⟨S100000x16, .f32⟩
  | .hbm, ⟨86, _⟩ => ⟨S_, .f32⟩
  | .hbm, ⟨87, _⟩ => ⟨S1024x16, .f32⟩
  | .hbm, ⟨88, _⟩ => ⟨S100000x1, .i32⟩
  | .hbm, ⟨89, _⟩ => ⟨S1024x16, .f32⟩
  | .hbm, ⟨90, _⟩ => ⟨S1x1, .f32⟩
  | .hbm, ⟨91, _⟩ => ⟨S1024x1, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S16x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S1x16, .f32⟩
  | .local _ .vmem, ⟨14, _⟩ => ⟨S10000x16, .f32⟩
  | .local _ .vmem, ⟨15, _⟩ => ⟨S10000x16, .f32⟩
  | .local _ .vmem, ⟨16, _⟩ => ⟨S1024x16, .f32⟩
  | .local _ .vmem, ⟨17, _⟩ => ⟨S16x1, .f32⟩
  | .local _ .vmem, ⟨18, _⟩ => ⟨S1x1, .f32⟩
  | .local _ .vmem, ⟨19, _⟩ => ⟨S1024x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_c_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem1_0 : DmaSem sig := 17
abbrev cc3_sem2_0 : DmaSem sig := 18
abbrev cc3_sem3_0 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S1024x16 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S16x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1024x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x16_S16x16_0_0 : ∀ a, (![0, 0] : Fin 2 → Nat) a + S16x16.size a ≤ S16x16.size a
  h_S16x16 : 0 < S16x16.numel
  bcast_S_S1024x16 : S_.BroadcastsInDim S1024x16 (![] : Fin 0 → Fin S1024x16.rank)
  bcast_S100000_S100000x1_0 : S100000.BroadcastsInDim S100000x1 (![0] : Fin 1 → Fin S100000x1.rank)
  shapeCasts_S1_S1x1 : S1.ShapeCasts S1x1
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x16_S10000x16_1_0_0_1_n_n_wf : DotDims.WF S10000x128 S128x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x16_S10000x16_1_0_0_1_n_n_wf : DotDims.WF S10000x16 S16x16 S10000x16 [1] [0] [0] [1] [] []
  scatter_S1024x16_S100000x1_S100000x16_1_0_0_1_wf : ScatterDims.WF S1024x16 S100000x1 S100000x16 [1] [0] [0] 1
  dot_S1024x16_S16x1_S1024x1_1_0_0_1_n_n_wf : DotDims.WF S1024x16 S16x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x16.size a ≤ S100000x16.size a
  hwx1_3 : ∀ i : grid1.Coords, EltTy.bits .f32 = 32 ∨ (Rect.block (s := S100000x16) S10000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S100000x16.size a
  hwx2_2 : ∀ i : grid2.Coords, EltTy.bits .f32 = 32 ∨ (Rect.block (s := S100000x16) S10000x16.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1024x16.size a ≤ S1024x16.size a
  hwx3_0 : ∀ i : grid3.Coords, EltTy.bits .f32 = 32 ∨ (Rect.block (s := S1024x16) S1024x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x1.size a ≤ S16x1.size a
  hwx3_1 : ∀ i : grid3.Coords, EltTy.bits .f32 = 32 ∨ (Rect.block (s := S16x1) S16x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1024x1.size a ≤ S1024x1.size a
  hwx3_3 : ∀ i : grid3.Coords, EltTy.bits .f32 = 32 ∨ (Rect.block (s := S1024x1) S1024x1.size (cc3_transform_3 i) (hinb3_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def scatter_S1024x16_S100000x1_S100000x16_1_0_0_1 : ScatterDims S1024x16 S100000x1 S100000x16 where
  updateWindowDims := [1]
  insertedWindowDims := [0]
  scatterDimsToOperandDims := [0]
  indexVectorDim := 1
  wf := scatter_S1024x16_S100000x1_S100000x16_1_0_0_1_wf
def dot_S1024x16_S16x1_S1024x1_1_0_0_1_n_n : DotDims S1024x16 S16x1 S1024x1 where
  lhsContracting := [1]
  rhsContracting := [0]
  lhsNonContracting := [0]
  rhsNonContracting := [1]
  lhsBatch := []
  rhsBatch := []
  wf := dot_S1024x16_S16x1_S1024x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S10000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v63) S1024x16.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S16x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v65) S1024x1.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S128x16 : Shape := ⟨2, ![128, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x16 : Shape := ⟨2, ![100000, 16]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S1024x16 : Shape := ⟨2, ![1024, 16]⟩
abbrev S100000x1 : Shape := ⟨2, ![100000, 1]⟩
abbrev S1024x1 : Shape := ⟨2, ![1024, 1]⟩
abbrev S1x1 : Shape := ⟨2, ![1, 1]⟩

abbrev nBuf : Space → Nat
  | .hbm => 144
  | .vmem => 0
  | .smem => 0
  | _ => 0

abbrev hbmTy0_0 (i : Nat) : BufTy := match i % 128 with
  | 0 => ⟨S100000x128, .f32⟩
  | 1 => ⟨S128x16, .f32⟩
  | 2 => ⟨S16, .f32⟩
  | 3 => ⟨S16x16, .f32⟩
  | 4 => ⟨S16, .f32⟩
  | 5 => ⟨S16x1, .f32⟩
  | 6 => ⟨S1, .f32⟩
  | 7 => ⟨S2x3200000, .i32⟩
  | 8 => ⟨S100000, .i32⟩
  | 9 => ⟨S100000, .i32⟩
  | 10 => ⟨S1x3200000, .i32⟩
  | 11 => ⟨S3200000, .i32⟩
  | 12 => ⟨S3300000, .i32⟩
  | 13 => ⟨S1x3200000, .i32⟩
  | 14 => ⟨S3200000, .i32⟩
  | 15 => ⟨S3300000, .i32⟩
  | 16 => ⟨S100000x16, .f32⟩
  | 17 => ⟨S_, .f32⟩
  | 18 => ⟨S3300000, .f32⟩
  | 19 => ⟨S_, .f32⟩
  | 20 => ⟨S100000, .f32⟩
  | 21 => ⟨S3300000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S3300000, .i32⟩
  | 33 => ⟨S3300000, .i1⟩
  | 34 => ⟨S_, .i32⟩
  | 35 => ⟨S3300000, .i32⟩
  | 36 => ⟨S3300000, .i32⟩
  | 37 => ⟨S3300000, .i32⟩
  | 38 => ⟨S3300000x1, .i32⟩
  | 39 => ⟨S3300000, .f32⟩
  | 40 => ⟨S_, .i32⟩
  | 41 => ⟨S3300000, .i32⟩
  | 42 => ⟨S3300000, .i1⟩
  | 43 => ⟨S_, .i32⟩
  | 44 => ⟨S3300000, .i32⟩
  | 45 => ⟨S3300000, .i32⟩
  | 46 => ⟨S3300000, .i32⟩
  | 47 => ⟨S3300000x1, .i32⟩
  | 48 => ⟨S3300000, .f32⟩
  | 49 => ⟨S3300000, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000x16, .f32⟩
  | 59 => ⟨S3300000x1, .f32⟩
  | 60 => ⟨S3300000x16, .f32⟩
  | 61 => ⟨S3300000x16, .f32⟩
  | 62 => ⟨S_, .f32⟩
  | 63 => ⟨S100000x16, .f32⟩
  | 64 => ⟨S3300000x1, .i32⟩
  | 65 => ⟨S100000x16, .f32⟩
  | 66 => ⟨S1x16, .f32⟩
  | 67 => ⟨S100000x16, .f32⟩
  | 68 => ⟨S100000x16, .f32⟩
  | 69 => ⟨S_, .f32⟩
  | 70 => ⟨S100000x16, .f32⟩
  | 71 => ⟨S100000x16, .f32⟩
  | 72 => ⟨S100000x16, .f32⟩
  | 73 => ⟨S_, .f32⟩
  | 74 => ⟨S3300000, .f32⟩
  | 75 => ⟨S_, .f32⟩
  | 76 => ⟨S100000, .f32⟩
  | 77 => ⟨S3300000x1, .i32⟩
  | 78 => ⟨S100000, .f32⟩
  | 79 => ⟨S_, .f32⟩
  | 80 => ⟨S100000, .f32⟩
  | 81 => ⟨S100000, .i1⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S3300000, .i32⟩
  | 89 => ⟨S3300000, .i1⟩
  | 90 => ⟨S_, .i32⟩
  | 91 => ⟨S3300000, .i32⟩
  | 92 => ⟨S3300000, .i32⟩
  | 93 => ⟨S3300000, .i32⟩
  | 94 => ⟨S3300000x1, .i32⟩
  | 95 => ⟨S3300000, .f32⟩
  | 96 => ⟨S_, .i32⟩
  | 97 => ⟨S3300000, .i32⟩
  | 98 => ⟨S3300000, .i1⟩
  | 99 => ⟨S_, .i32⟩
  | 100 => ⟨S3300000, .i32⟩
  | 101 => ⟨S3300000, .i32⟩
  | 102 => ⟨S3300000, .i32⟩
  | 103 => ⟨S3300000x1, .i32⟩
  | 104 => ⟨S3300000, .f32⟩
  | 105 => ⟨S3300000, .f32⟩
  | 106 => ⟨S_, .i32⟩
  | 107 => ⟨S3300000, .i32⟩
  | 108 => ⟨S3300000, .i1⟩
  | 109 => ⟨S_, .i32⟩
  | 110 => ⟨S3300000, .i32⟩
  | 111 => ⟨S3300000, .i32⟩
  | 112 => ⟨S3300000, .i32⟩
  | 113 => ⟨S3300000x1, .i32⟩
  | 114 => ⟨S3300000x16, .f32⟩
  | 115 => ⟨S3300000x1, .f32⟩
  | 116 => ⟨S3300000x16, .f32⟩
  | 117 => ⟨S3300000x16, .f32⟩
  | 118 => ⟨S_, .f32⟩
  | 119 => ⟨S100000x16, .f32⟩
  | 120 => ⟨S3300000x1, .i32⟩
  | 121 => ⟨S100000x16, .f32⟩
  | 122 => ⟨S1x16, .f32⟩
  | 123 => ⟨S100000x16, .f32⟩
  | 124 => ⟨S100000x16, .f32⟩
  | 125 => ⟨S_, .f32⟩
  | 126 => ⟨S100000x16, .f32⟩
  | 127 => ⟨S100000x16, .f32⟩
  | _ => ⟨S100000x128, .f32⟩

abbrev hbmTy0_1 (i : Nat) : BufTy := match i % 128 with
  | 0 => ⟨S_, .f32⟩
  | 1 => ⟨S1024x16, .f32⟩
  | 2 => ⟨S100000x1, .i32⟩
  | 3 => ⟨S1024x16, .f32⟩
  | 4 => ⟨S1024x1, .f32⟩
  | 5 => ⟨S1x1, .f32⟩
  | 6 => ⟨S1024x1, .f32⟩
  | 7 => ⟨S1024x1, .f32⟩
  | 8 => ⟨S1024x1, .f32⟩
  | 9 => ⟨S1024x1, .f32⟩
  | 10 => ⟨S_, .f32⟩
  | 11 => ⟨S1024x1, .f32⟩
  | 12 => ⟨S1024x1, .f32⟩
  | 13 => ⟨S_, .f32⟩
  | 14 => ⟨S1024x1, .f32⟩
  | 15 => ⟨S1024x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v56 : Ref sig .tc := ⟨.hbm, 86, rfl⟩
abbrev main_c_13 : Ref sig .tc := ⟨.hbm, 87, rfl⟩
abbrev main_v57 : Ref sig .tc := ⟨.hbm, 88, rfl⟩
abbrev main_v58 : Ref sig .tc := ⟨.hbm, 89, rfl⟩
abbrev main_c_14 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c_15 : Ref sig .tc := ⟨.hbm, 96, rfl⟩
abbrev main_v64 : Ref sig .tc := ⟨.hbm, 97, rfl⟩
abbrev main_v65 : Ref sig .tc := ⟨.hbm, 98, rfl⟩
abbrev main_c_16 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_17 : Ref sig .tc := ⟨.hbm, 106, rfl⟩
abbrev main_v72 : Ref sig .tc := ⟨.hbm, 107, rfl⟩
abbrev main_v73 : Ref sig .tc := ⟨.hbm, 108, rfl⟩
abbrev main_c_18 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_19 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_call3_cst : Ref sig .tc := ⟨.hbm, 125, rfl⟩
abbrev main_call3_v0 : Ref sig .tc := ⟨.hbm, 126, rfl⟩
abbrev main_v88 : Ref sig .tc := ⟨.hbm, 127, rfl⟩
abbrev main_cst_20 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_21 : Ref sig .tc := ⟨.hbm, 138, rfl⟩
abbrev main_v98 : Ref sig .tc := ⟨.hbm, 139, rfl⟩
abbrev main_v99 : Ref sig .tc := ⟨.hbm, 140, rfl⟩
abbrev main_cst_22 : Ref sig .tc := ⟨.hbm, 141, rfl⟩
abbrev main_v100 : Ref sig .tc := ⟨.hbm, 142, rfl⟩
abbrev main_v101 : Ref sig .tc := ⟨.hbm, 143, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S1024x16 : S_.BroadcastsInDim S1024x16 (![] : Fin 0 → Fin S1024x16.rank)
  bcast_S100000_S100000x1_0 : S100000.BroadcastsInDim S100000x1 (![0] : Fin 1 → Fin S100000x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  bcast_S_S1024x1 : S_.BroadcastsInDim S1024x1 (![] : Fin 0 → Fin S1024x1.rank)
  dot_S100000x128_S128x16_S100000x16_1_0_0_1_n_n_wf : DotDims.WF S100000x128 S128x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x16_S100000x16_1_0_0_1_n_n_wf : DotDims.WF S100000x16 S16x16 S100000x16 [1] [0] [0] [1] [] []
  scatter_S1024x16_S100000x1_S100000x16_1_0_0_1_wf : ScatterDims.WF S1024x16 S100000x1 S100000x16 [1] [0] [0] 1
  dot_S1024x16_S16x1_S1024x1_1_0_0_1_n_n_wf : DotDims.WF S1024x16 S16x1 S1024x1 [1] [0] [0] [1] [] []

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def scatter_S1024x16_S100000x1_S100000x16_1_0_0_1 : ScatterDims S1024x16 S100000x1 S100000x16 where
  updateWindowDims := [1]
  insertedWindowDims := [0]
  scatterDimsToOperandDims := [0]
  indexVectorDim := 1
  wf := scatter_S1024x16_S100000x1_S100000x16_1_0_0_1_wf
def dot_S1024x16_S16x1_S1024x1_1_0_0_1_n_n : DotDims S1024x16 S16x1 S1024x1 where
  lhsContracting := [1]
  rhsContracting := [0]
  lhsNonContracting := [0]
  rhsNonContracting := [1]
  lhsBatch := []
  rhsBatch := []
  wf := dot_S1024x16_S16x1_S1024x1_1_0_0_1_n_n_wf

class Facts : Prop extends Facts₀ where

variable [Facts]
-- ==== Proof.KRun.lean ====
/-
  The idealized kernel's whole run, with its result named. @main is ten segments: a stretch of host operations, then each of the four
  tiled kernels with the host operations between them. Run from any memory, every weakly fair execution terminates with every
  unscoped buffer at the contents the segments compose — the host stretches applied in order, each kernel's arrays at what its
  write-backs leave. The frame certificate reads only the nine arguments out of that final state; here the result buffer (the
  1024 graph scores) is read out of it as well, at the last boundary's contents, together with the unchanged arguments.
-/
import proofs.«143874_j25048249270599_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes unfolding plain
-- definitions in a metavariable's type
set_option backward.isDefEq.respectTransparency.types false in
/-- Every weakly fair execution of @main terminates, nothing faulting, with the result buffer at the last boundary's contents and
    the argument arrays as launched. -/
theorem run : θ_run defs (onTc (τ := τ) (main (F := F))) ⟨m, fun _ => 0, ρ⟩ (fun r => ∀ c : Dev nD,
      r.2.mem ((c.tc : Thread nD τ).loc main_v65) = W10 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v65 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.KernelIdeal.Whole

end
-- ==== Proof.Host.lean ====
/-
  The host operations between the kernels, one stretch at a time, from ANY contents `X` of the buffers when the stretch begins.
  Each lemma reads one buffer after the stretch:

  * a buffer the stretch computes — the edge lists with the self-loops appended (source and target), the degree test and its
    reciprocal square root, the edge weight `dinv[src] · dinv[dst]`, a layer's aggregated messages (gather at the sources, scale by the
    edge weight, scatter-add at the targets), the pooled features (scatter-add over the graph index), a bias as one row — is the SAME
    operations the reference applies, so it equals the reference's stage of the same name once the buffers the stretch reads are known
    to hold the reference's earlier stages (the hypotheses `h…`);
  * a buffer the stretch does not write keeps its contents (`keep…`, one lemma per stretch over the list of buffers it writes).

  Nothing is opened: a gather or a scatter-add is carried as the one operation it is on both sides.
-/
import proofs.«143874_j25048249270599_1_alg».proof.Proof.Gen.KernelIdeal.Launch
import proofs.«143874_j25048249270599_1_alg».proof.Proof.RefRead
import Idealize.ShloMosaic.Lib.StableHlo.Run

set_option maxRecDepth 16384

noncomputable section

namespace Cert.KernelIdeal.Stretch

open Cert.KernelIdeal Cert.KernelIdeal.Gen Cert.ReferenceIdeal.ReadP
open Idealize.ShloMosaic Idealize.ShloMosaic.TcCoe Idealize.SL.Sem Idealize.ShloMosaic.StableHlo

variable {F : FTy → Type} [FloatOps F]
variable (X : Valuation τ sig (Elt F))

/-! ## Before the first kernel: the edge lists, the degrees -/

/-- The source list: the first row of the edge index, then every node once (its self-loop). -/
theorem s0_v3 : after hostOps0 X (Proc.devRef .tc main_v3) = val_main_v3 (F := F) (X (Proc.devRef .tc main_arg7)) := by
  after_results <;> rfl
/-- The target list: the second row of the edge index, then every node once. -/
theorem s0_v6 : after hostOps0 X (Proc.devRef .tc main_v6) = val_main_v6 (F := F) (X (Proc.devRef .tc main_arg7)) := by
  after_results <;> rfl
/-- Which nodes have a positive degree (ones scatter-added at the targets). -/
theorem s0_v12 : after hostOps0 X (Proc.devRef .tc main_v12) = val_main_v13 (F := F) (X (Proc.devRef .tc main_arg7)) := by
  after_results <;> rfl
/-- The reciprocal square root of the degrees. -/
theorem s0_v13 : after hostOps0 X (Proc.devRef .tc main_v13) = val_main_v14 (F := F) (X (Proc.devRef .tc main_arg7)) := by
  after_results <;> rfl
/-- The zero that replaces the reciprocal square root at a node of degree zero. -/
theorem s0_cst2 : after hostOps0 X (Proc.devRef .tc main_cst_2) = val_main_cst_2 (F := F) := by
  after_results <;> rfl

/-- The buffers the first stretch writes. -/
abbrev written0 : List (Ref sig .tc) := [main_v0, main_v1, main_v2, main_v3, main_v4, main_v5, main_v6, main_cst, main_v7, main_cst_0, main_v8, main_v9, main_v10, main_cst_1, main_v11, main_v12, main_v13, main_cst_2]
theorem writes0 : (hostOps0 : List (HloOp τ sig (Elt F))).Forall fun op => op.writes ⊆ (written0.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A buffer outside that list holds after the stretch what it held before. -/
theorem keep0 {r : Ref sig .tc} (h : r ∉ (written0 : List (Ref sig .tc))) : after hostOps0 X (Proc.devRef .tc r) = X (Proc.devRef .tc r) :=
  after_of_writes_sub hostOps0 X writes0 h

/-! ## The normalisation `where (deg > 0) (rsqrt deg) 0` -/

theorem s01_v14 (a7 : (⟨Cert.ReferenceIdeal.S2x3200000, .i32⟩ : BufTy).Contents (Elt F))
    (h12 : X (Proc.devRef .tc main_v12) = val_main_v13 (F := F) a7) (h13 : X (Proc.devRef .tc main_v13) = val_main_v14 (F := F) a7)
    (hc : X (Proc.devRef .tc main_cst_2) = val_main_cst_2 (F := F)) :
    after hostOps0_1 X (Proc.devRef .tc main_v14) = val_main_v15 (F := F) a7 := by
  after_results
  rw [h12, h13, hc]
  rfl

/-- The buffers the normalisation writes. -/
abbrev written01 : List (Ref sig .tc) := [main_call0_v0, main_call0_v1, main_v14]
theorem writes01 : (hostOps0_1 : List (HloOp τ sig (Elt F))).Forall fun op => op.writes ⊆ (written01.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A buffer outside that list holds after the stretch what it held before. -/
theorem keep01 {r : Ref sig .tc} (h : r ∉ (written01 : List (Ref sig .tc))) : after hostOps0_1 X (Proc.devRef .tc r) = X (Proc.devRef .tc r) :=
  after_of_writes_sub hostOps0_1 X writes01 h

/-! ## The edge weight `dinv[src] · dinv[dst]` (negative indices wrapped once, as jnp indexing does) -/

theorem s02_v29 (a7 : (⟨Cert.ReferenceIdeal.S2x3200000, .i32⟩ : BufTy).Contents (Elt F))
    (h3 : X (Proc.devRef .tc main_v3) = val_main_v3 (F := F) a7) (h6 : X (Proc.devRef .tc main_v6) = val_main_v6 (F := F) a7)
    (h14 : X (Proc.devRef .tc main_v14) = val_main_v15 (F := F) a7) :
    after hostOps0_2 X (Proc.devRef .tc main_v29) = val_main_v30 (F := F) a7 := by
  after_results_simp
  rw [h3, h6, h14]
  rfl

/-- The buffers the edge-weight stretch writes. -/
abbrev written02 : List (Ref sig .tc) := [main_c, main_v15, main_v16, main_c_3, main_v17, main_v18, main_v19, main_v20, main_v21, main_c_4, main_v22, main_v23, main_c_5, main_v24, main_v25, main_v26, main_v27, main_v28, main_v29]
theorem writes02 : (hostOps0_2 : List (HloOp τ sig (Elt F))).Forall fun op => op.writes ⊆ (written02.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A buffer outside that list holds after the stretch what it held before. -/
theorem keep02 {r : Ref sig .tc} (h : r ∉ (written02 : List (Ref sig .tc))) : after hostOps0_2 X (Proc.devRef .tc r) = X (Proc.devRef .tc r) :=
  after_of_writes_sub hostOps0_2 X writes02 h

/-! ## After the first kernel: the first layer's aggregated messages, and its bias as one row -/

theorem s1_v43 (a0 : (⟨Cert.ReferenceIdeal.S100000x128, .f32⟩ : BufTy).Contents (Elt F)) (a1 : (⟨Cert.ReferenceIdeal.S128x16, .f32⟩ : BufTy).Contents (Elt F)) (a7 : (⟨Cert.ReferenceIdeal.S2x3200000, .i32⟩ : BufTy).Contents (Elt F))
    (h3 : X (Proc.devRef .tc main_v3) = val_main_v3 (F := F) a7) (h6 : X (Proc.devRef .tc main_v6) = val_main_v6 (F := F) a7)
    (h29 : X (Proc.devRef .tc main_v29) = val_main_v30 (F := F) a7) (h30 : X (Proc.devRef .tc main_v30) = val_main_v7 (F := F) a0 a1) :
    after hostOps1 X (Proc.devRef .tc main_v43) = val_main_v43 (F := F) a0 a1 a7 := by
  after_results_simp
  rw [h3, h6, h29, h30]
  rfl
theorem s1_v44 : after hostOps1 X (Proc.devRef .tc main_v44) = shapeCast S1x16 (X (Proc.devRef .tc main_arg2)) shapeCasts_S16_S1x16 := by
  after_results <;> rfl

/-- The buffers the stretch after the first kernel writes. -/
abbrev written1 : List (Ref sig .tc) := [main_c_6, main_v31, main_v32, main_c_7, main_v33, main_v34, main_v35, main_v36, main_v37, main_v38, main_v39, main_v40, main_cst_8, main_v41, main_v42, main_v43, main_v44]
theorem writes1 : (hostOps1 : List (HloOp τ sig (Elt F))).Forall fun op => op.writes ⊆ (written1.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A buffer outside that list holds after the stretch what it held before. -/
theorem keep1 {r : Ref sig .tc} (h : r ∉ (written1 : List (Ref sig .tc))) : after hostOps1 X (Proc.devRef .tc r) = X (Proc.devRef .tc r) :=
  after_of_writes_sub hostOps1 X writes1 h

/-! ## After the second kernel: the second layer's aggregated messages, and its bias as one row -/

theorem s2_v58 (a0 : (⟨Cert.ReferenceIdeal.S100000x128, .f32⟩ : BufTy).Contents (Elt F)) (a1 : (⟨Cert.ReferenceIdeal.S128x16, .f32⟩ : BufTy).Contents (Elt F)) (a2 : (⟨Cert.ReferenceIdeal.S16, .f32⟩ : BufTy).Contents (Elt F)) (a3 : (⟨Cert.ReferenceIdeal.S16x16, .f32⟩ : BufTy).Contents (Elt F)) (a7 : (⟨Cert.ReferenceIdeal.S2x3200000, .i32⟩ : BufTy).Contents (Elt F))
    (h3 : X (Proc.devRef .tc main_v3) = val_main_v3 (F := F) a7) (h6 : X (Proc.devRef .tc main_v6) = val_main_v6 (F := F) a7)
    (h29 : X (Proc.devRef .tc main_v29) = val_main_v30 (F := F) a7) (h45 : X (Proc.devRef .tc main_v45) = val_main_v48 (F := F) a0 a1 a2 a3 a7) :
    after hostOps2 X (Proc.devRef .tc main_v58) = val_main_v84 (F := F) a0 a1 a2 a3 a7 := by
  after_results_simp
  rw [h3, h6, h29, h45]
  rfl
theorem s2_v59 : after hostOps2 X (Proc.devRef .tc main_v59) = shapeCast S1x16 (X (Proc.devRef .tc main_arg4)) shapeCasts_S16_S1x16 := by
  after_results <;> rfl

/-- The buffers the stretch after the second kernel writes. -/
abbrev written2 : List (Ref sig .tc) := [main_c_9, main_v46, main_v47, main_c_10, main_v48, main_v49, main_v50, main_v51, main_v52, main_v53, main_v54, main_v55, main_cst_11, main_v56, main_v57, main_v58, main_v59]
theorem writes2 : (hostOps2 : List (HloOp τ sig (Elt F))).Forall fun op => op.writes ⊆ (written2.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A buffer outside that list holds after the stretch what it held before. -/
theorem keep2 {r : Ref sig .tc} (h : r ∉ (written2 : List (Ref sig .tc))) : after hostOps2 X (Proc.devRef .tc r) = X (Proc.devRef .tc r) :=
  after_of_writes_sub hostOps2 X writes2 h

/-! ## After the third kernel: the pooled features, and the last bias as one entry -/

theorem s3_v63 (a0 : (⟨Cert.ReferenceIdeal.S100000x128, .f32⟩ : BufTy).Contents (Elt F)) (a1 : (⟨Cert.ReferenceIdeal.S128x16, .f32⟩ : BufTy).Contents (Elt F)) (a2 : (⟨Cert.ReferenceIdeal.S16, .f32⟩ : BufTy).Contents (Elt F)) (a3 : (⟨Cert.ReferenceIdeal.S16x16, .f32⟩ : BufTy).Contents (Elt F)) (a4 : (⟨Cert.ReferenceIdeal.S16, .f32⟩ : BufTy).Contents (Elt F)) (a7 : (⟨Cert.ReferenceIdeal.S2x3200000, .i32⟩ : BufTy).Contents (Elt F)) (a8 : (⟨Cert.ReferenceIdeal.S100000, .i32⟩ : BufTy).Contents (Elt F))
    (h60 : X (Proc.devRef .tc main_v60) = val_main_v88 (F := F) a0 a1 a2 a3 a4 a7) (h8 : X (Proc.devRef .tc main_arg8) = a8) :
    after hostOps3 X (Proc.devRef .tc main_v63) = val_main_v91 (F := F) a0 a1 a2 a3 a4 a7 a8 := by
  after_results
  rw [h60, h8]
  rfl
theorem s3_v64 : after hostOps3 X (Proc.devRef .tc main_v64) = shapeCast S1x1 (X (Proc.devRef .tc main_arg6)) shapeCasts_S1_S1x1 := by
  after_results <;> rfl
/-- The buffers the stretch after the third kernel writes. -/
abbrev written3 : List (Ref sig .tc) := [main_cst_12, main_v61, main_v62, main_v63, main_v64]
theorem writes3 : (hostOps3 : List (HloOp τ sig (Elt F))).Forall fun op => op.writes ⊆ (written3.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A buffer outside that list holds after the stretch what it held before. -/
theorem keep3 {r : Ref sig .tc} (h : r ∉ (written3 : List (Ref sig .tc))) : after hostOps3 X (Proc.devRef .tc r) = X (Proc.devRef .tc r) :=
  after_of_writes_sub hostOps3 X writes3 h

end Cert.KernelIdeal.Stretch

end
-- ==== Proof.Spec.lean ====
/-
  What the dense stages of the two-layer graph convolution compute, each as ONE function of whole arrays, read index by
  index over the extended reals. Nothing here mentions a program: the kernel's four tiled stages and the reference's
  host operations are both shown equal to these functions.

  * `project x w`        — node features times a weight matrix: entry (r, j) is the sum over k of x[r, k] · w[k, j];
  * `hidden a b w`       — the second layer's input: relu of the aggregated messages plus the bias row, times the weights:
                            entry (r, j) is the sum over k of max (a[r, k] + b[0, k]) 0 · w[k, j];
  * `activate a b`       — relu of the aggregated messages plus the bias row: max (a[r, j] + b[0, j]) 0;
  * `score p w b`        — the graph's logit through the logistic function: logistic (sum over k of p[g, k] · w[k, 0] + b[0, 0]).

  The zero of the relu is kept as the float word both programs print (the same word on both sides is never evaluated).
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-- The relu's threshold: the float word `0.0`, read at the extended reals. -/
abbrev zeroWord : EReal := Ideal.ofBits .f32 0x00000000#32

/-- The float word `1.0` (sign 0, biased exponent 127, no fraction bits) is the real number one: the one literal of the reference's
    `1 / (1 + e⁻ˣ)` that is evaluated, since the kernel's logistic operation carries no literal. -/
theorem oneWord : Ideal.ofBits .f32 0x3F800000#32 = (1 : EReal) := by
  simp [Ideal.ofBits, Ideal.ieee, -EReal.coe_mul]; norm_num

/-- `x @ w` for 100000 nodes, 128 input features, 16 hidden features. -/
def project (x : (⟨2, ![100000, 128]⟩ : Shape).Idx → EReal) (w : (⟨2, ![128, 16]⟩ : Shape).Idx → EReal) :
    (⟨2, ![100000, 16]⟩ : Shape).Idx → EReal :=
  fun i => ∑ k : Fin 128, x (ix2 (i 0) k) * w (ix2 k (i 1))

/-- `relu (a + b) @ w`: the bias row `b` is added to every node's row before the threshold. -/
def hidden (a : (⟨2, ![100000, 16]⟩ : Shape).Idx → EReal) (b : (⟨2, ![1, 16]⟩ : Shape).Idx → EReal)
    (w : (⟨2, ![16, 16]⟩ : Shape).Idx → EReal) : (⟨2, ![100000, 16]⟩ : Shape).Idx → EReal :=
  fun i => ∑ k : Fin 16, max (a (ix2 (i 0) k) + b (ix2 (0 : Fin 1) k)) zeroWord * w (ix2 k (i 1))

/-- `relu (a + b)`. -/
def activate (a : (⟨2, ![100000, 16]⟩ : Shape).Idx → EReal) (b : (⟨2, ![1, 16]⟩ : Shape).Idx → EReal) :
    (⟨2, ![100000, 16]⟩ : Shape).Idx → EReal :=
  fun i => max (a i + b (ix2 (0 : Fin 1) (i 1))) zeroWord

/-- `logistic (p @ w + b)` for 1024 graphs. -/
def score (p : (⟨2, ![1024, 16]⟩ : Shape).Idx → EReal) (w : (⟨2, ![16, 1]⟩ : Shape).Idx → EReal)
    (b : (⟨2, ![1, 1]⟩ : Shape).Idx → EReal) : (⟨2, ![1024, 1]⟩ : Shape).Idx → EReal :=
  fun i => Ideal.logistic ((∑ k : Fin 16, p (ix2 (i 0) k) * w (ix2 k (i 1))) + b (ix2 (0 : Fin 1) (i 1)))

theorem project_apply (x : (⟨2, ![100000, 128]⟩ : Shape).Idx → EReal) (w : (⟨2, ![128, 16]⟩ : Shape).Idx → EReal)
    (r : Fin 100000) (j : Fin 16) : project x w (ix2 r j) = ∑ k : Fin 128, x (ix2 r k) * w (ix2 k j) := rfl

theorem hidden_apply (a : (⟨2, ![100000, 16]⟩ : Shape).Idx → EReal) (b : (⟨2, ![1, 16]⟩ : Shape).Idx → EReal)
    (w : (⟨2, ![16, 16]⟩ : Shape).Idx → EReal) (r : Fin 100000) (j : Fin 16) :
    hidden a b w (ix2 r j) = ∑ k : Fin 16, max (a (ix2 r k) + b (ix2 (0 : Fin 1) k)) zeroWord * w (ix2 k j) := rfl

theorem activate_apply (a : (⟨2, ![100000, 16]⟩ : Shape).Idx → EReal) (b : (⟨2, ![1, 16]⟩ : Shape).Idx → EReal)
    (r : Fin 100000) (j : Fin 16) : activate a b (ix2 r j) = max (a (ix2 r j) + b (ix2 (0 : Fin 1) j)) zeroWord := rfl

theorem score_apply (p : (⟨2, ![1024, 16]⟩ : Shape).Idx → EReal) (w : (⟨2, ![16, 1]⟩ : Shape).Idx → EReal)
    (b : (⟨2, ![1, 1]⟩ : Shape).Idx → EReal) (g : Fin 1024) (j : Fin 1) :
    score p w b (ix2 g j) = Ideal.logistic ((∑ k : Fin 16, p (ix2 g k) * w (ix2 k j)) + b (ix2 (0 : Fin 1) j)) := rfl

end Cert.Gcn

end
-- ==== Proof.Payload.lean ====
/-
  The value each kernel body stores, read at one (row, column) of its block, over the extended reals — where a change of float
  format is the identity and a matrix product accumulated into zeros is a plain sum over the contracted axis:

    projection kernel          block[p, q] = Σ_k x[p, k] · w[k, q]
    bias-relu-matmul kernel    block[p, q] = Σ_k max (a[p, k] + b[0, k]) 0 · w[k, q]
    bias-relu kernel           block[p, q] = max (a[p, q] + b[0, q]) 0
    final kernel               block[p, q] = logistic (Σ_k pooled[p, k] · w[k, q] + b[0, q])

  Every statement is over variables of the literal vector types and explicit coordinates `p`, `q`; the blocks of the pipeline are put
  in for the variables later.
-/
import proofs.«143874_j25048249270599_1_alg».proof.Proof.Gen.KernelIdeal.Skeleton
import proofs.«143874_j25048249270599_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ### The matrix product of kernel 0: `10000x128 · 128x16`, one contracted axis of 128 -/

theorem mmL0_0 (i : S10000x16.Idx) (q : dot_S10000x128_S128x16_S10000x16_1_0_0_1_n_n.contr.Idx) : (dot_S10000x128_S128x16_S10000x16_1_0_0_1_n_n.lhsIdx i q 0).val = (i 0).val := by
  unfold DotDims.lhsIdx
  rw [dif_neg (show ¬(0 : Fin S10000x128.rank) ∈ dot_S10000x128_S128x16_S10000x16_1_0_0_1_n_n.lhsBatch by decide), dif_pos (show (0 : Fin S10000x128.rank) ∈ dot_S10000x128_S128x16_S10000x16_1_0_0_1_n_n.lhsNonContracting by decide)]
  rfl
theorem mmL1_0 (i : S10000x16.Idx) (q : dot_S10000x128_S128x16_S10000x16_1_0_0_1_n_n.contr.Idx) : (dot_S10000x128_S128x16_S10000x16_1_0_0_1_n_n.lhsIdx i q 1).val = (q ⟨0, by decide⟩).val :=
  dot_S10000x128_S128x16_S10000x16_1_0_0_1_n_n.lhsIdx_val_of_single rfl i q
theorem mmR0_0 (i : S10000x16.Idx) (q : dot_S10000x128_S128x16_S10000x16_1_0_0_1_n_n.contr.Idx) : (dot_S10000x128_S128x16_S10000x16_1_0_0_1_n_n.rhsIdx i q 0).val = (q ⟨0, by decide⟩).val :=
  dot_S10000x128_S128x16_S10000x16_1_0_0_1_n_n.rhsIdx_val_of_single rfl i q
theorem mmR1_0 (i : S10000x16.Idx) (q : dot_S10000x128_S128x16_S10000x16_1_0_0_1_n_n.contr.Idx) : (dot_S10000x128_S128x16_S10000x16_1_0_0_1_n_n.rhsIdx i q 1).val = (i 1).val := by
  unfold DotDims.rhsIdx
  rw [dif_neg (show ¬(1 : Fin S128x16.rank) ∈ dot_S10000x128_S128x16_S10000x16_1_0_0_1_n_n.rhsBatch by decide), dif_pos (show (1 : Fin S128x16.rank) ∈ dot_S10000x128_S128x16_S10000x16_1_0_0_1_n_n.rhsNonContracting by decide)]
  rfl

/-- The product accumulated into zeros, read at (row `p`, column `q`): the sum over the contracted axis of the left operand's row
    `p` against the right operand's column `q` (the contracted index set is `Fin 128`, re-indexed once). -/
theorem matmul_0 (l : FVec Ideal S10000x128 .bf16) (r : FVec Ideal S128x16 .bf16) (p : Fin 10000) (q : Fin 16) :
    matmul dot_S10000x128_S128x16_S10000x16_1_0_0_1_n_n none l r (constant S10000x16 .f32 0x00000000#32) (ix2 p q) = ∑ k : Fin 128, l (ix2 p k) * r (ix2 k q) := by
  show FloatOps.matmul dot_S10000x128_S128x16_S10000x16_1_0_0_1_n_n none l r (constant S10000x16 .f32 0x00000000#32) (ix2 p q) = _
  rw [Ideal.matmul_constant_zero_apply, ← Equiv.sum_comp (ValueIdx.contrEquiv1 dot_S10000x128_S128x16_S10000x16_1_0_0_1_n_n 128 rfl rfl).symm]
  refine Finset.sum_congr rfl fun k _ => ?_
  have hk := ValueIdx.contrEquiv1_symm_val dot_S10000x128_S128x16_S10000x16_1_0_0_1_n_n 128 rfl rfl k
  have el : dot_S10000x128_S128x16_S10000x16_1_0_0_1_n_n.lhsIdx (ix2 p q) ((ValueIdx.contrEquiv1 dot_S10000x128_S128x16_S10000x16_1_0_0_1_n_n 128 rfl rfl).symm k) = ix2 p k := funext fun a => Fin.ext (by
    match a with
    | ⟨0, _⟩ => exact mmL0_0 _ _
    | ⟨1, _⟩ => exact (mmL1_0 _ _).trans hk)
  have er : dot_S10000x128_S128x16_S10000x16_1_0_0_1_n_n.rhsIdx (ix2 p q) ((ValueIdx.contrEquiv1 dot_S10000x128_S128x16_S10000x16_1_0_0_1_n_n 128 rfl rfl).symm k) = ix2 k q := funext fun a => Fin.ext (by
    match a with
    | ⟨0, _⟩ => exact (mmR0_0 _ _).trans hk
    | ⟨1, _⟩ => exact mmR1_0 _ _)
  rw [el, er]

/-! ### The matrix product of kernel 1: `10000x16 · 16x16`, one contracted axis of 16 -/

theorem mmL0_1 (i : S10000x16.Idx) (q : dot_S10000x16_S16x16_S10000x16_1_0_0_1_n_n.contr.Idx) : (dot_S10000x16_S16x16_S10000x16_1_0_0_1_n_n.lhsIdx i q 0).val = (i 0).val := by
  unfold DotDims.lhsIdx
  rw [dif_neg (show ¬(0 : Fin S10000x16.rank) ∈ dot_S10000x16_S16x16_S10000x16_1_0_0_1_n_n.lhsBatch by decide), dif_pos (show (0 : Fin S10000x16.rank) ∈ dot_S10000x16_S16x16_S10000x16_1_0_0_1_n_n.lhsNonContracting by decide)]
  rfl
theorem mmL1_1 (i : S10000x16.Idx) (q : dot_S10000x16_S16x16_S10000x16_1_0_0_1_n_n.contr.Idx) : (dot_S10000x16_S16x16_S10000x16_1_0_0_1_n_n.lhsIdx i q 1).val = (q ⟨0, by decide⟩).val :=
  dot_S10000x16_S16x16_S10000x16_1_0_0_1_n_n.lhsIdx_val_of_single rfl i q
theorem mmR0_1 (i : S10000x16.Idx) (q : dot_S10000x16_S16x16_S10000x16_1_0_0_1_n_n.contr.Idx) : (dot_S10000x16_S16x16_S10000x16_1_0_0_1_n_n.rhsIdx i q 0).val = (q ⟨0, by decide⟩).val :=
  dot_S10000x16_S16x16_S10000x16_1_0_0_1_n_n.rhsIdx_val_of_single rfl i q
theorem mmR1_1 (i : S10000x16.Idx) (q : dot_S10000x16_S16x16_S10000x16_1_0_0_1_n_n.contr.Idx) : (dot_S10000x16_S16x16_S10000x16_1_0_0_1_n_n.rhsIdx i q 1).val = (i 1).val := by
  unfold DotDims.rhsIdx
  rw [dif_neg (show ¬(1 : Fin S16x16.rank) ∈ dot_S10000x16_S16x16_S10000x16_1_0_0_1_n_n.rhsBatch by decide), dif_pos (show (1 : Fin S16x16.rank) ∈ dot_S10000x16_S16x16_S10000x16_1_0_0_1_n_n.rhsNonContracting by decide)]
  rfl

/-- The product accumulated into zeros, read at (row `p`, column `q`): the sum over the contracted axis of the left operand's row
    `p` against the right operand's column `q` (the contracted index set is `Fin 16`, re-indexed once). -/
theorem matmul_1 (l : FVec Ideal S10000x16 .bf16) (r : FVec Ideal S16x16 .bf16) (p : Fin 10000) (q : Fin 16) :
    matmul dot_S10000x16_S16x16_S10000x16_1_0_0_1_n_n none l r (constant S10000x16 .f32 0x00000000#32) (ix2 p q) = ∑ k : Fin 16, l (ix2 p k) * r (ix2 k q) := by
  show FloatOps.matmul dot_S10000x16_S16x16_S10000x16_1_0_0_1_n_n none l r (constant S10000x16 .f32 0x00000000#32) (ix2 p q) = _
  rw [Ideal.matmul_constant_zero_apply, ← Equiv.sum_comp (ValueIdx.contrEquiv1 dot_S10000x16_S16x16_S10000x16_1_0_0_1_n_n 16 rfl rfl).symm]
  refine Finset.sum_congr rfl fun k _ => ?_
  have hk := ValueIdx.contrEquiv1_symm_val dot_S10000x16_S16x16_S10000x16_1_0_0_1_n_n 16 rfl rfl k
  have el : dot_S10000x16_S16x16_S10000x16_1_0_0_1_n_n.lhsIdx (ix2 p q) ((ValueIdx.contrEquiv1 dot_S10000x16_S16x16_S10000x16_1_0_0_1_n_n 16 rfl rfl).symm k) = ix2 p k := funext fun a => Fin.ext (by
    match a with
    | ⟨0, _⟩ => exact mmL0_1 _ _
    | ⟨1, _⟩ => exact (mmL1_1 _ _).trans hk)
  have er : dot_S10000x16_S16x16_S10000x16_1_0_0_1_n_n.rhsIdx (ix2 p q) ((ValueIdx.contrEquiv1 dot_S10000x16_S16x16_S10000x16_1_0_0_1_n_n 16 rfl rfl).symm k) = ix2 k q := funext fun a => Fin.ext (by
    match a with
    | ⟨0, _⟩ => exact (mmR0_1 _ _).trans hk
    | ⟨1, _⟩ => exact mmR1_1 _ _)
  rw [el, er]

/-! ### The matrix product of kernel 3: `1024x16 · 16x1`, one contracted axis of 16 -/

theorem mmL0_3 (i : S1024x1.Idx) (q : dot_S1024x16_S16x1_S1024x1_1_0_0_1_n_n.contr.Idx) : (dot_S1024x16_S16x1_S1024x1_1_0_0_1_n_n.lhsIdx i q 0).val = (i 0).val := by
  unfold DotDims.lhsIdx
  rw [dif_neg (show ¬(0 : Fin S1024x16.rank) ∈ dot_S1024x16_S16x1_S1024x1_1_0_0_1_n_n.lhsBatch by decide), dif_pos (show (0 : Fin S1024x16.rank) ∈ dot_S1024x16_S16x1_S1024x1_1_0_0_1_n_n.lhsNonContracting by decide)]
  rfl
theorem mmL1_3 (i : S1024x1.Idx) (q : dot_S1024x16_S16x1_S1024x1_1_0_0_1_n_n.contr.Idx) : (dot_S1024x16_S16x1_S1024x1_1_0_0_1_n_n.lhsIdx i q 1).val = (q ⟨0, by decide⟩).val :=
  dot_S1024x16_S16x1_S1024x1_1_0_0_1_n_n.lhsIdx_val_of_single rfl i q
theorem mmR0_3 (i : S1024x1.Idx) (q : dot_S1024x16_S16x1_S1024x1_1_0_0_1_n_n.contr.Idx) : (dot_S1024x16_S16x1_S1024x1_1_0_0_1_n_n.rhsIdx i q 0).val = (q ⟨0, by decide⟩).val :=
  dot_S1024x16_S16x1_S1024x1_1_0_0_1_n_n.rhsIdx_val_of_single rfl i q
theorem mmR1_3 (i : S1024x1.Idx) (q : dot_S1024x16_S16x1_S1024x1_1_0_0_1_n_n.contr.Idx) : (dot_S1024x16_S16x1_S1024x1_1_0_0_1_n_n.rhsIdx i q 1).val = (i 1).val := by
  unfold DotDims.rhsIdx
  rw [dif_neg (show ¬(1 : Fin S16x1.rank) ∈ dot_S1024x16_S16x1_S1024x1_1_0_0_1_n_n.rhsBatch by decide), dif_pos (show (1 : Fin S16x1.rank) ∈ dot_S1024x16_S16x1_S1024x1_1_0_0_1_n_n.rhsNonContracting by decide)]
  rfl

/-- The product accumulated into zeros, read at (row `p`, column `q`): the sum over the contracted axis of the left operand's row
    `p` against the right operand's column `q` (the contracted index set is `Fin 16`, re-indexed once). -/
theorem matmul_3 (l : FVec Ideal S1024x16 .bf16) (r : FVec Ideal S16x1 .bf16) (p : Fin 1024) (q : Fin 1) :
    matmul dot_S1024x16_S16x1_S1024x1_1_0_0_1_n_n none l r (constant S1024x1 .f32 0x00000000#32) (ix2 p q) = ∑ k : Fin 16, l (ix2 p k) * r (ix2 k q) := by
  show FloatOps.matmul dot_S1024x16_S16x1_S1024x1_1_0_0_1_n_n none l r (constant S1024x1 .f32 0x00000000#32) (ix2 p q) = _
  rw [Ideal.matmul_constant_zero_apply, ← Equiv.sum_comp (ValueIdx.contrEquiv1 dot_S1024x16_S16x1_S1024x1_1_0_0_1_n_n 16 rfl rfl).symm]
  refine Finset.sum_congr rfl fun k _ => ?_
  have hk := ValueIdx.contrEquiv1_symm_val dot_S1024x16_S16x1_S1024x1_1_0_0_1_n_n 16 rfl rfl k
  have el : dot_S1024x16_S16x1_S1024x1_1_0_0_1_n_n.lhsIdx (ix2 p q) ((ValueIdx.contrEquiv1 dot_S1024x16_S16x1_S1024x1_1_0_0_1_n_n 16 rfl rfl).symm k) = ix2 p k := funext fun a => Fin.ext (by
    match a with
    | ⟨0, _⟩ => exact mmL0_3 _ _
    | ⟨1, _⟩ => exact (mmL1_3 _ _).trans hk)
  have er : dot_S1024x16_S16x1_S1024x1_1_0_0_1_n_n.rhsIdx (ix2 p q) ((ValueIdx.contrEquiv1 dot_S1024x16_S16x1_S1024x1_1_0_0_1_n_n 16 rfl rfl).symm k) = ix2 k q := funext fun a => Fin.ext (by
    match a with
    | ⟨0, _⟩ => exact (mmR0_3 _ _).trans hk
    | ⟨1, _⟩ => exact mmR1_3 _ _)
  rw [el, er]

/-! ## The four payloads -/

/-- The projection kernel's block: rows of the node block against the columns of the weights. -/
theorem pay0 (v0 : Vec Ideal S10000x128 .f32) (v2 : Vec Ideal S128x16 .f32) (p : Fin 10000) (q : Fin 16) :
    k0_pay1 v0 v2 (ix2 p q) = ∑ k : Fin 128, v0 (ix2 p k) * v2 (ix2 k q) := by
  unfold k0_pay1
  exact (matmul_0 _ _ p q).trans (Finset.sum_congr rfl fun k _ => rfl)

/-- One entry of `relu (a + b)` on a block: the bias row is the same for every row of the block. -/
theorem biasRelu_apply (v0 : Vec Ideal S10000x16 .f32) (v2 : Vec Ideal S1x16 .f32) (p : Fin 10000) (k : Fin 16) :
    maximumf (addf (shapeCast S10000x16 v0 shapeCasts_S10000x16_S10000x16) (broadcastTo S10000x16 (shapeCast S1x16 v2 shapeCasts_S1x16_S1x16) broadcasts_S1x16_S10000x16))
        (broadcast S10000x16 (Scalar.ofBits (F := Ideal) .f32 0x00000000#32)) (ix2 p k)
      = max (v0 (ix2 p k) + v2 (ix2 (0 : Fin 1) k)) Cert.Gcn.zeroWord := by
  show max (shapeCast S10000x16 v0 shapeCasts_S10000x16_S10000x16 (ix2 p k) + broadcastTo S10000x16 (shapeCast S1x16 v2 shapeCasts_S1x16_S1x16) broadcasts_S1x16_S10000x16 (ix2 p k)) Cert.Gcn.zeroWord = _
  rw [shapeCast_self, shapeCast_self, broadcastTo_1b_ab_apply]

/-- The second layer's block: `relu (a + b)` of the aggregated block against the columns of the weights. -/
theorem pay1 (v0 : Vec Ideal S10000x16 .f32) (v2 : Vec Ideal S1x16 .f32) (v9 : Vec Ideal S16x16 .f32) (p : Fin 10000) (q : Fin 16) :
    k1_pay1 v0 v2 v9 (ix2 p q) = ∑ k : Fin 16, max (v0 (ix2 p k) + v2 (ix2 (0 : Fin 1) k)) Cert.Gcn.zeroWord * v9 (ix2 k q) := by
  unfold k1_pay1
  refine (matmul_1 _ _ p q).trans (Finset.sum_congr rfl fun k _ => ?_)
  exact congrArg (· * v9 (ix2 k q)) (biasRelu_apply v0 v2 p k)

/-- The last activation's block. -/
theorem pay2 (v0 : Vec Ideal S10000x16 .f32) (v2 : Vec Ideal S1x16 .f32) (p : Fin 10000) (q : Fin 16) :
    k2_pay1 v0 v2 (ix2 p q) = max (v0 (ix2 p q) + v2 (ix2 (0 : Fin 1) q)) Cert.Gcn.zeroWord := by
  unfold k2_pay1
  exact biasRelu_apply v0 v2 p q

/-- The final kernel's one block: the logistic function of the pooled features against the weight column, plus the bias. -/
theorem pay3 (v0 : Vec Ideal S1024x16 .f32) (v3 : Vec Ideal S16x1 .f32) (v6 : Vec Ideal S1x1 .f32) (p : Fin 1024) (q : Fin 1) :
    k3_pay1 v0 v3 v6 (ix2 p q) = Ideal.logistic ((∑ k : Fin 16, v0 (ix2 p k) * v3 (ix2 k q)) + v6 (ix2 (0 : Fin 1) q)) := by
  unfold k3_pay1
  show Ideal.logistic (matmul (F := Ideal) dot_S1024x16_S16x1_S1024x1_1_0_0_1_n_n none (truncf .bf16 (shapeCast S1024x16 v0 shapeCasts_S1024x16_S1024x16) bitsLt_bf16_f32) (truncf .bf16 v3 bitsLt_bf16_f32) (constant S1024x1 .f32 0x00000000#32) (ix2 p q)
      + broadcastTo S1024x1 (shapeCast S1x1 v6 shapeCasts_S1x1_S1x1) broadcasts_S1x1_S1024x1 (ix2 p q)) = _
  rw [matmul_3, shapeCast_self, shapeCast_self, broadcastTo_1b_ab_apply]
  rfl

end Cert.KernelIdeal.Pay

end
-- ==== Proof.Blocks0.lean ====
/-
  The first kernel as one function of whole arrays. Its grid has ten points; point `t` reads rows 10000·t … 10000·t + 9999 of the node
  features and the whole weight matrix, and writes back the same rows of the result. What it writes is the block's rows against the
  weight columns, so block `t` of the result is block `t` of `project x w`; the ten blocks tile the 100000 rows, and the result array
  ends holding `project x w` — for ANY contents `V` of the buffers when the kernel is entered.
-/
import proofs.«143874_j25048249270599_1_alg».proof.Proof.Gen.KernelIdeal.Frame
import proofs.«143874_j25048249270599_1_alg».proof.Proof.Payload
import Idealize.ShloMosaic.Lib.Pipeline.Value

set_option maxRecDepth 16384

noncomputable section

namespace Cert.KernelIdeal.Blocks

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zeroOffsets : (![0, 0] : Fin 2 → Nat) = fun _ => 0 := funext fun a => by fin_cases a <;> rfl

/-- The index maps over the grid: the node block and the result block are block `t` of their arrays' rows; the weights are one block. -/
theorem maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block of ten thousand rows is some point's. -/
theorem onto0 : ∀ r : Fin 10, ∃ t : Fin cfg0.N, win0_2.index t (0 : Fin 2) = r.val ∧ win0_2.index t (1 : Fin 2) = 0 :=
  (by decide +kernel : ∀ r : Fin 10, ∃ t : Fin grid0.N, win0_2.index t (0 : Fin 2) = r.val ∧ win0_2.index t (1 : Fin 2) = 0)

/-- Row `p` of the node block at point `t` is the row of the node array that the result block's row `p` sits on. -/
theorem nodes0 (c : Dev nD) (t : Fin cfg0.N) (p : Fin 10000) (q : Fin 16) (k : Fin 128) :
    iblk0 V c 0 t (ix2 p k) = V c main_arg0 (ix2 ((((cfg0.win 2).blk t).view.emb (ix2 p q)) 0) k) := by
  obtain ⟨e00, e01, -, -, e20, -⟩ := maps0 t
  show V c main_arg0 (((cfg0.win 0).blk t).view.emb (ix2 p k)) = _
  refine congrArg (V c main_arg0) (funext fun a => Fin.ext ?_)
  match a with
  | ⟨0, _⟩ => show win0_0.index t (0 : Fin 2) * 10000 + 1 * p.val = win0_2.index t (0 : Fin 2) * 10000 + 1 * p.val; omega
  | ⟨1, _⟩ => show win0_0.index t (1 : Fin 2) * 128 + 1 * k.val = k.val; omega

/-- The weight block is the whole weight matrix. -/
theorem weights0 (c : Dev nD) (t : Fin cfg0.N) (p : Fin 10000) (q : Fin 16) (k : Fin 128) :
    iblk0 V c 1 t (ix2 k q) = V c main_arg1 (ix2 k ((((cfg0.win 2).blk t).view.emb (ix2 p q)) 1)) := by
  obtain ⟨-, -, e10, e11, -, e21⟩ := maps0 t
  show V c main_arg1 (((cfg0.win 1).blk t).view.emb (ix2 k q)) = _
  refine congrArg (V c main_arg1) (funext fun a => Fin.ext ?_)
  match a with
  | ⟨0, _⟩ => show win0_1.index t (0 : Fin 2) * 128 + 1 * k.val = k.val; omega
  | ⟨1, _⟩ => show win0_1.index t (1 : Fin 2) * 16 + 1 * q.val = win0_2.index t (1 : Fin 2) * 16 + 1 * q.val; omega

/-- What point `t` writes back is block `t` of `project x w`. -/
theorem flushed0 (c : Dev nD) (t : Fin cfg0.N) :
    (dat0 (F := Ideal) V c).flushed 2 t
      = ((cfg0.win 2).blk t).view.read (Elt Ideal) (Cert.Gcn.project (V c main_arg0) (V c main_arg1)) := by
  show (cfg0.win 2).cut (grid0.coords t) ((dat0 V c).after 2 t) = _
  rw [after0_2]
  unfold out0_2
  rw [View.canon_unit_zero zeroOffsets]
  simp only [View.ld_unit_zero (S := S10000x128) zeroOffsets, View.ld_unit_zero (S := S128x16) zeroOffsets]
  funext j
  obtain ⟨p, q, rfl⟩ : ∃ (p : Fin 10000) (q : Fin 16), j = ix2 p q := ⟨j 0, j 1, eq_ix2 j⟩
  show k0_pay1 (iblk0 V c 0 t) (iblk0 V c 1 t) (ix2 p q)
      = Cert.Gcn.project (V c main_arg0) (V c main_arg1) (((cfg0.win 2).blk t).view.emb (ix2 p q))
  refine (Pay.pay0 (iblk0 V c 0 t) (iblk0 V c 1 t) p q).trans (Finset.sum_congr rfl fun k _ => ?_)
  rw [nodes0 V c t p q k, weights0 V c t p q k]

/-- An index of the result array is in point `t`'s block iff each coordinate is in the block's range on its axis. -/
theorem mem_block0 (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v30).slice (win0_2.rect t)).set ↔ _
  rw [View.set_slice_whole, Rect.mem_set_unit]
  exact Iff.rfl

/-- The blocks tile the array: row `r` is in the block of point `r / 10000`. -/
theorem cover0 (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, h0, h1⟩ := onto0 ⟨(i 0).val / 10000, by omega⟩
  refine ⟨t, flush0_2 t, ?_⟩
  rw [mem_block0]
  intro a
  match a with
  | ⟨0, _⟩ => show win0_2.index t (0 : Fin 2) * 10000 ≤ (i 0).val ∧ (i 0).val < win0_2.index t (0 : Fin 2) * 10000 + 10000; simp only at h0; omega
  | ⟨1, _⟩ => show win0_2.index t (1 : Fin 2) * 16 ≤ (i 1).val ∧ (i 1).val < win0_2.index t (1 : Fin 2) * 16 + 16; omega

/-- The result array after the first kernel, whatever it is entered from. -/
theorem array0 (c : Dev nD) :
    (dat0 (F := Ideal) V c).arrAt 2 cfg0.N = Cert.Gcn.project (V c main_arg0) (V c main_arg1) :=
  (dat0 V c).arrAt_eq_of_cover 2 _ (fun t _ => flushed0 V c t) cover0

end Cert.KernelIdeal.Blocks

end
-- ==== Proof.Blocks1.lean ====
/-
  The second kernel as one function of whole arrays. Point `t` of its ten reads rows 10000·t … of the first layer's aggregated messages,
  the bias row and the whole second weight matrix, and writes back the same rows of its result: `relu (a + b)` of the block against the
  weight columns. So block `t` of the result is block `t` of `hidden a b w`, the blocks tile the rows, and the result array ends
  holding `hidden a b w` — for any contents `V` of the buffers when the kernel is entered.
-/
import proofs.«143874_j25048249270599_1_alg».proof.Proof.Blocks0

set_option maxRecDepth 16384

noncomputable section

namespace Cert.KernelIdeal.Blocks

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem onto1 : ∀ r : Fin 10, ∃ t : Fin cfg1.N, win1_3.index t (0 : Fin 2) = r.val ∧ win1_3.index t (1 : Fin 2) = 0 :=
  (by decide +kernel : ∀ r : Fin 10, ∃ t : Fin grid1.N, win1_3.index t (0 : Fin 2) = r.val ∧ win1_3.index t (1 : Fin 2) = 0)

/-- Row `p` of the aggregated block at point `t` is the array's row under the result block's row `p`. -/
theorem rows1 (c : Dev nD) (t : Fin cfg1.N) (p : Fin 10000) (q : Fin 16) (k : Fin 16) :
    iblk1 V c 0 t (ix2 p k) = V c main_v43 (ix2 ((((cfg1.win 3).blk t).view.emb (ix2 p q)) 0) k) := by
  obtain ⟨e00, e01, -, -, -, -, e30, -⟩ := maps1 t
  show V c main_v43 (((cfg1.win 0).blk t).view.emb (ix2 p k)) = _
  refine congrArg (V c main_v43) (funext fun a => Fin.ext ?_)
  match a with
  | ⟨0, _⟩ => show win1_0.index t (0 : Fin 2) * 10000 + 1 * p.val = win1_3.index t (0 : Fin 2) * 10000 + 1 * p.val; omega
  | ⟨1, _⟩ => show win1_0.index t (1 : Fin 2) * 16 + 1 * k.val = k.val; omega

/-- The bias block is the one bias row. -/
theorem bias1 (c : Dev nD) (t : Fin cfg1.N) (k : Fin 16) :
    iblk1 V c 1 t (ix2 (0 : Fin 1) k) = V c main_v44 (ix2 (0 : Fin 1) k) := by
  obtain ⟨-, -, e10, e11, -, -, -, -⟩ := maps1 t
  show V c main_v44 (((cfg1.win 1).blk t).view.emb (ix2 (0 : Fin 1) k)) = _
  refine congrArg (V c main_v44) (funext fun a => Fin.ext ?_)
  match a with
  | ⟨0, _⟩ => show win1_1.index t (0 : Fin 2) * 1 + 1 * 0 = 0; omega
  | ⟨1, _⟩ => show win1_1.index t (1 : Fin 2) * 16 + 1 * k.val = k.val; omega

/-- The weight block is the whole weight matrix. -/
theorem weights1 (c : Dev nD) (t : Fin cfg1.N) (p : Fin 10000) (q : Fin 16) (k : Fin 16) :
    iblk1 V c 2 t (ix2 k q) = V c main_arg3 (ix2 k ((((cfg1.win 3).blk t).view.emb (ix2 p q)) 1)) := by
  obtain ⟨-, -, -, -, e20, e21, -, e31⟩ := maps1 t
  show V c main_arg3 (((cfg1.win 2).blk t).view.emb (ix2 k q)) = _
  refine congrArg (V c main_arg3) (funext fun a => Fin.ext ?_)
  match a with
  | ⟨0, _⟩ => show win1_2.index t (0 : Fin 2) * 16 + 1 * k.val = k.val; omega
  | ⟨1, _⟩ => show win1_2.index t (1 : Fin 2) * 16 + 1 * q.val = win1_3.index t (1 : Fin 2) * 16 + 1 * q.val; omega

/-- What point `t` writes back is block `t` of `hidden a b w`. -/
theorem flushed1 (c : Dev nD) (t : Fin cfg1.N) :
    (dat1 (F := Ideal) V c).flushed 3 t
      = ((cfg1.win 3).blk t).view.read (Elt Ideal) (Cert.Gcn.hidden (V c main_v43) (V c main_v44) (V c main_arg3)) := by
  show (cfg1.win 3).cut (grid1.coords t) ((dat1 V c).after 3 t) = _
  rw [after1_3]
  unfold out1_3
  rw [View.canon_unit_zero zeroOffsets]
  simp only [View.ld_unit_zero (S := S10000x16) zeroOffsets, View.ld_unit_zero (S := S1x16) zeroOffsets, View.ld_unit_zero (S := S16x16) zeroOffsets]
  funext j
  obtain ⟨p, q, rfl⟩ : ∃ (p : Fin 10000) (q : Fin 16), j = ix2 p q := ⟨j 0, j 1, eq_ix2 j⟩
  show k1_pay1 (iblk1 V c 0 t) (iblk1 V c 1 t) (iblk1 V c 2 t) (ix2 p q)
      = Cert.Gcn.hidden (V c main_v43) (V c main_v44) (V c main_arg3) (((cfg1.win 3).blk t).view.emb (ix2 p q))
  refine (Pay.pay1 (iblk1 V c 0 t) (iblk1 V c 1 t) (iblk1 V c 2 t) p q).trans (Finset.sum_congr rfl fun k _ => ?_)
  rw [rows1 V c t p q k, bias1 V c t k, weights1 V c t p q k]

theorem mem_block1 (t : Fin cfg1.N) (i : S100000x16.Idx) :
    i ∈ ((cfg1.win 3).blk t).view.set ↔ ∀ a : Fin 2, win1_3.index t a * S10000x16.size a ≤ (i a).val ∧ (i a).val < win1_3.index t a * S10000x16.size a + S10000x16.size a := by
  show i ∈ ((View.whole main_v45).slice (win1_3.rect t)).set ↔ _
  rw [View.set_slice_whole, Rect.mem_set_unit]
  exact Iff.rfl

theorem cover1 (i : S100000x16.Idx) : ∃ t : Fin cfg1.N, (cfg1.win 3).flush t = true ∧ i ∈ ((cfg1.win 3).blk t).view.set := by
  have hi0 : (i 0).val < 100000 := (i 0).isLt
  have hi1 : (i 1).val < 16 := (i 1).isLt
  obtain ⟨t, h0, h1⟩ := onto1 ⟨(i 0).val / 10000, by omega⟩
  refine ⟨t, flush1_3 t, ?_⟩
  rw [mem_block1]
  intro a
  match a with
  | ⟨0, _⟩ => show win1_3.index t (0 : Fin 2) * 10000 ≤ (i 0).val ∧ (i 0).val < win1_3.index t (0 : Fin 2) * 10000 + 10000; simp only at h0; omega
  | ⟨1, _⟩ => show win1_3.index t (1 : Fin 2) * 16 ≤ (i 1).val ∧ (i 1).val < win1_3.index t (1 : Fin 2) * 16 + 16; omega

/-- The result array after the second kernel, whatever it is entered from. -/
theorem array1 (c : Dev nD) :
    (dat1 (F := Ideal) V c).arrAt 3 cfg1.N = Cert.Gcn.hidden (V c main_v43) (V c main_v44) (V c main_arg3) :=
  (dat1 V c).arrAt_eq_of_cover 3 _ (fun t _ => flushed1 V c t) cover1

end Cert.KernelIdeal.Blocks

end
-- ==== Proof.Blocks2.lean ====
/-
  The third kernel as one function of whole arrays: point `t` of its ten reads rows 10000·t … of the second layer's aggregated messages and
  the bias row, and writes back `relu (a + b)` of those rows. Block `t` of the result is block `t` of `activate a b`; the blocks tile the
  rows; the result array ends holding `activate a b`, for any contents `V` of the buffers when the kernel is entered.
-/
import proofs.«143874_j25048249270599_1_alg».proof.Proof.Blocks0

set_option maxRecDepth 16384

noncomputable section

namespace Cert.KernelIdeal.Blocks

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem maps2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem onto2 : ∀ r : Fin 10, ∃ t : Fin cfg2.N, win2_2.index t (0 : Fin 2) = r.val ∧ win2_2.index t (1 : Fin 2) = 0 :=
  (by decide +kernel : ∀ r : Fin 10, ∃ t : Fin grid2.N, win2_2.index t (0 : Fin 2) = r.val ∧ win2_2.index t (1 : Fin 2) = 0)

/-- The aggregated block at point `t` sits exactly under the result block. -/
theorem rows2 (c : Dev nD) (t : Fin cfg2.N) (p : Fin 10000) (q : Fin 16) :
    iblk2 V c 0 t (ix2 p q) = V c main_v58 (((cfg2.win 2).blk t).view.emb (ix2 p q)) := by
  obtain ⟨e00, e01, -, -, e20, e21⟩ := maps2 t
  show V c main_v58 (((cfg2.win 0).blk t).view.emb (ix2 p q)) = _
  refine congrArg (V c main_v58) (funext fun a => Fin.ext ?_)
  match a with
  | ⟨0, _⟩ => show win2_0.index t (0 : Fin 2) * 10000 + 1 * p.val = win2_2.index t (0 : Fin 2) * 10000 + 1 * p.val; omega
  | ⟨1, _⟩ => show win2_0.index t (1 : Fin 2) * 16 + 1 * q.val = win2_2.index t (1 : Fin 2) * 16 + 1 * q.val; omega

/-- The bias block is the one bias row, read at the result's column. -/
theorem bias2 (c : Dev nD) (t : Fin cfg2.N) (p : Fin 10000) (q : Fin 16) :
    iblk2 V c 1 t (ix2 (0 : Fin 1) q) = V c main_v59 (ix2 (0 : Fin 1) ((((cfg2.win 2).blk t).view.emb (ix2 p q)) 1)) := by
  obtain ⟨-, -, e10, e11, -, e21⟩ := maps2 t
  show V c main_v59 (((cfg2.win 1).blk t).view.emb (ix2 (0 : Fin 1) q)) = _
  refine congrArg (V c main_v59) (funext fun a => Fin.ext ?_)
  match a with
  | ⟨0, _⟩ => show win2_1.index t (0 : Fin 2) * 1 + 1 * 0 = 0; omega
  | ⟨1, _⟩ => show win2_1.index t (1 : Fin 2) * 16 + 1 * q.val = win2_2.index t (1 : Fin 2) * 16 + 1 * q.val; omega

/-- What point `t` writes back is block `t` of `activate a b`. -/
theorem flushed2 (c : Dev nD) (t : Fin cfg2.N) :
    (dat2 (F := Ideal) V c).flushed 2 t
      = ((cfg2.win 2).blk t).view.read (Elt Ideal) (Cert.Gcn.activate (V c main_v58) (V c main_v59)) := by
  show (cfg2.win 2).cut (grid2.coords t) ((dat2 V c).after 2 t) = _
  rw [after2_2]
  unfold out2_2
  rw [View.canon_unit_zero zeroOffsets]
  simp only [View.ld_unit_zero (S := S10000x16) zeroOffsets, View.ld_unit_zero (S := S1x16) zeroOffsets]
  funext j
  obtain ⟨p, q, rfl⟩ : ∃ (p : Fin 10000) (q : Fin 16), j = ix2 p q := ⟨j 0, j 1, eq_ix2 j⟩
  show k2_pay1 (iblk2 V c 0 t) (iblk2 V c 1 t) (ix2 p q)
      = Cert.Gcn.activate (V c main_v58) (V c main_v59) (((cfg2.win 2).blk t).view.emb (ix2 p q))
  refine (Pay.pay2 (iblk2 V c 0 t) (iblk2 V c 1 t) p q).trans ?_
  rw [rows2 V c t p q, bias2 V c t p q]
  rfl

theorem mem_block2 (t : Fin cfg2.N) (i : S100000x16.Idx) :
    i ∈ ((cfg2.win 2).blk t).view.set ↔ ∀ a : Fin 2, win2_2.index t a * S10000x16.size a ≤ (i a).val ∧ (i a).val < win2_2.index t a * S10000x16.size a + S10000x16.size a := by
  show i ∈ ((View.whole main_v60).slice (win2_2.rect t)).set ↔ _
  rw [View.set_slice_whole, Rect.mem_set_unit]
  exact Iff.rfl

theorem cover2 (i : S100000x16.Idx) : ∃ t : Fin cfg2.N, (cfg2.win 2).flush t = true ∧ i ∈ ((cfg2.win 2).blk t).view.set := by
  have hi0 : (i 0).val < 100000 := (i 0).isLt
  have hi1 : (i 1).val < 16 := (i 1).isLt
  obtain ⟨t, h0, h1⟩ := onto2 ⟨(i 0).val / 10000, by omega⟩
  refine ⟨t, flush2_2 t, ?_⟩
  rw [mem_block2]
  intro a
  match a with
  | ⟨0, _⟩ => show win2_2.index t (0 : Fin 2) * 10000 ≤ (i 0).val ∧ (i 0).val < win2_2.index t (0 : Fin 2) * 10000 + 10000; simp only at h0; omega
  | ⟨1, _⟩ => show win2_2.index t (1 : Fin 2) * 16 ≤ (i 1).val ∧ (i 1).val < win2_2.index t (1 : Fin 2) * 16 + 16; omega

/-- The result array after the third kernel, whatever it is entered from. -/
theorem array2 (c : Dev nD) :
    (dat2 (F := Ideal) V c).arrAt 2 cfg2.N = Cert.Gcn.activate (V c main_v58) (V c main_v59) :=
  (dat2 V c).arrAt_eq_of_cover 2 _ (fun t _ => flushed2 V c t) cover2

end Cert.KernelIdeal.Blocks

end
-- ==== Proof.Blocks3.lean ====
/-
  The last kernel as one function of whole arrays. Its grid is one point, and every window is its whole array: the pooled features
  (1024 graphs × 16), the weight column, the bias entry, and the 1024 scores it writes. So the one block it writes back is
  `score p w b` itself, for any contents `V` of the buffers when the kernel is entered.
-/
import proofs.«143874_j25048249270599_1_alg».proof.Proof.Blocks0

set_option maxRecDepth 16384

noncomputable section

namespace Cert.KernelIdeal.Blocks

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem maps3 : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

theorem onto3 : ∃ t : Fin cfg3.N, win3_3.index t (0 : Fin 2) = 0 ∧ win3_3.index t (1 : Fin 2) = 0 :=
  (by decide +kernel : ∃ t : Fin grid3.N, win3_3.index t (0 : Fin 2) = 0 ∧ win3_3.index t (1 : Fin 2) = 0)

theorem pooled3 (c : Dev nD) (t : Fin cfg3.N) (p : Fin 1024) (q : Fin 1) (k : Fin 16) :
    iblk3 V c 0 t (ix2 p k) = V c main_v63 (ix2 ((((cfg3.win 3).blk t).view.emb (ix2 p q)) 0) k) := by
  obtain ⟨e00, e01, -, -, -, -, e30, -⟩ := maps3 t
  show V c main_v63 (((cfg3.win 0).blk t).view.emb (ix2 p k)) = _
  refine congrArg (V c main_v63) (funext fun a => Fin.ext ?_)
  match a with
  | ⟨0, _⟩ => show win3_0.index t (0 : Fin 2) * 1024 + 1 * p.val = win3_3.index t (0 : Fin 2) * 1024 + 1 * p.val; omega
  | ⟨1, _⟩ => show win3_0.index t (1 : Fin 2) * 16 + 1 * k.val = k.val; omega

theorem weights3 (c : Dev nD) (t : Fin cfg3.N) (p : Fin 1024) (q : Fin 1) (k : Fin 16) :
    iblk3 V c 1 t (ix2 k q) = V c main_arg5 (ix2 k ((((cfg3.win 3).blk t).view.emb (ix2 p q)) 1)) := by
  obtain ⟨-, -, e10, e11, -, -, -, e31⟩ := maps3 t
  show V c main_arg5 (((cfg3.win 1).blk t).view.emb (ix2 k q)) = _
  refine congrArg (V c main_arg5) (funext fun a => Fin.ext ?_)
  match a with
  | ⟨0, _⟩ => show win3_1.index t (0 : Fin 2) * 16 + 1 * k.val = k.val; omega
  | ⟨1, _⟩ => show win3_1.index t (1 : Fin 2) * 1 + 1 * q.val = win3_3.index t (1 : Fin 2) * 1 + 1 * q.val; omega

theorem bias3 (c : Dev nD) (t : Fin cfg3.N) (p : Fin 1024) (q : Fin 1) :
    iblk3 V c 2 t (ix2 (0 : Fin 1) q) = V c main_v64 (ix2 (0 : Fin 1) ((((cfg3.win 3).blk t).view.emb (ix2 p q)) 1)) := by
  obtain ⟨-, -, -, -, e20, e21, -, e31⟩ := maps3 t
  show V c main_v64 (((cfg3.win 2).blk t).view.emb (ix2 (0 : Fin 1) q)) = _
  refine congrArg (V c main_v64) (funext fun a => Fin.ext ?_)
  match a with
  | ⟨0, _⟩ => show win3_2.index t (0 : Fin 2) * 1 + 1 * 0 = 0; omega
  | ⟨1, _⟩ => show win3_2.index t (1 : Fin 2) * 1 + 1 * q.val = win3_3.index t (1 : Fin 2) * 1 + 1 * q.val; omega

/-- What the one point writes back is `score p w b` read through the whole array. -/
theorem flushed3 (c : Dev nD) (t : Fin cfg3.N) :
    (dat3 (F := Ideal) V c).flushed 3 t
      = ((cfg3.win 3).blk t).view.read (Elt Ideal) (Cert.Gcn.score (V c main_v63) (V c main_arg5) (V c main_v64)) := by
  show (cfg3.win 3).cut (grid3.coords t) ((dat3 V c).after 3 t) = _
  rw [after3_3]
  unfold out3_3
  rw [View.canon_unit_zero zeroOffsets]
  simp only [View.ld_unit_zero (S := S1024x16) zeroOffsets, View.ld_unit_zero (S := S16x1) zeroOffsets, View.ld_unit_zero (S := S1x1) zeroOffsets]
  funext j
  obtain ⟨p, q, rfl⟩ : ∃ (p : Fin 1024) (q : Fin 1), j = ix2 p q := ⟨j 0, j 1, eq_ix2 j⟩
  show k3_pay1 (iblk3 V c 0 t) (iblk3 V c 1 t) (iblk3 V c 2 t) (ix2 p q)
      = Cert.Gcn.score (V c main_v63) (V c main_arg5) (V c main_v64) (((cfg3.win 3).blk t).view.emb (ix2 p q))
  refine (Pay.pay3 (iblk3 V c 0 t) (iblk3 V c 1 t) (iblk3 V c 2 t) p q).trans ?_
  rw [bias3 V c t p q, Finset.sum_congr rfl fun k _ => by rw [pooled3 V c t p q k, weights3 V c t p q k]]
  rfl

theorem mem_block3 (t : Fin cfg3.N) (i : S1024x1.Idx) :
    i ∈ ((cfg3.win 3).blk t).view.set ↔ ∀ a : Fin 2, win3_3.index t a * S1024x1.size a ≤ (i a).val ∧ (i a).val < win3_3.index t a * S1024x1.size a + S1024x1.size a := by
  show i ∈ ((View.whole main_v65).slice (win3_3.rect t)).set ↔ _
  rw [View.set_slice_whole, Rect.mem_set_unit]
  exact Iff.rfl

theorem cover3 (i : S1024x1.Idx) : ∃ t : Fin cfg3.N, (cfg3.win 3).flush t = true ∧ i ∈ ((cfg3.win 3).blk t).view.set := by
  have hi0 : (i 0).val < 1024 := (i 0).isLt
  have hi1 : (i 1).val < 1 := (i 1).isLt
  obtain ⟨t, h0, h1⟩ := onto3
  refine ⟨t, flush3_3 t, ?_⟩
  rw [mem_block3]
  intro a
  match a with
  | ⟨0, _⟩ => show win3_3.index t (0 : Fin 2) * 1024 ≤ (i 0).val ∧ (i 0).val < win3_3.index t (0 : Fin 2) * 1024 + 1024; omega
  | ⟨1, _⟩ => show win3_3.index t (1 : Fin 2) * 1 ≤ (i 1).val ∧ (i 1).val < win3_3.index t (1 : Fin 2) * 1 + 1; omega

/-- The score array after the last kernel, whatever it is entered from. -/
theorem array3 (c : Dev nD) :
    (dat3 (F := Ideal) V c).arrAt 3 cfg3.N = Cert.Gcn.score (V c main_v63) (V c main_arg5) (V c main_v64) :=
  (dat3 V c).arrAt_eq_of_cover 3 _ (fun t _ => flushed3 V c t) cover3

end Cert.KernelIdeal.Blocks

end
-- ==== Proof.Bridge.lean ====
/-
  The reference's four dense stages, each as the specification's function of the stage before it.

  The reference multiplies whole arrays on the host (`dot_general`), adds a bias broadcast from a vector, and applies relu as a maximum
  with a broadcast zero; its sigmoid is spelled `1 / (1 + e^(-z))`. Read at an index (the generated read-at-an-index lemmas) these are
  the same sums, maxima and quotient the specification states: a product with one contracted axis is the sum over that axis; the
  bias vector read through its two broadcasts is its entry at the column; and `1 / (1 + e^(-z))` IS the logistic function of the extended
  reals once the float word `1.0` is read as the number one. The bias row the kernel is handed (a `[1, n]` array) enters as any
  array `b` that agrees with the vector entry by entry.
-/
import proofs.«143874_j25048249270599_1_alg».proof.Proof.RefRead
import proofs.«143874_j25048249270599_1_alg».proof.Proof.Spec

noncomputable section

namespace Cert.ReferenceIdeal.Dense

open Cert.ReferenceIdeal Cert.ReferenceIdeal.ReadP Idealize.ShloMosaic Idealize.ShloMosaic.ValueIdx

/-! ## The first projection -/

theorem project_eq (x0 : (⟨S100000x128, .f32⟩ : BufTy).Contents (Elt Ideal)) (x1 : (⟨S128x16, .f32⟩ : BufTy).Contents (Elt Ideal)) :
    val_main_v7 (F := Ideal) x0 x1 = Cert.Gcn.project x0 x1 := by
  funext i
  obtain ⟨r, j, rfl⟩ : ∃ (r : Fin 100000) (j : Fin 16), i = ix2 r j := ⟨i 0, i 1, eq_ix2 i⟩
  rw [val_main_v7_apply, Cert.Gcn.project_apply]
  refine Finset.sum_congr rfl fun k _ => ?_
  rw [show lidx_main_v7 (ix2 r j) k = ix2 r k from funext fun a => Fin.ext (by match a with | ⟨0, _⟩ => rfl | ⟨1, _⟩ => rfl),
      show ridx_main_v7 (ix2 r j) k = ix2 k j from funext fun a => Fin.ext (by match a with | ⟨0, _⟩ => rfl | ⟨1, _⟩ => rfl)]

/-! ## The second layer's input: relu of the first layer's output, projected -/

theorem hidden_eq (x0 : (⟨S100000x128, .f32⟩ : BufTy).Contents (Elt Ideal)) (x1 : (⟨S128x16, .f32⟩ : BufTy).Contents (Elt Ideal)) (x2 : (⟨S16, .f32⟩ : BufTy).Contents (Elt Ideal)) (x3 : (⟨S16x16, .f32⟩ : BufTy).Contents (Elt Ideal)) (x7 : (⟨S2x3200000, .i32⟩ : BufTy).Contents (Elt Ideal))
    (b : (⟨2, ![1, 16]⟩ : Shape).Idx → EReal) (hb : ∀ k : Fin 16, b (ix2 (0 : Fin 1) k) = x2 (ix1 k)) :
    val_main_v48 (F := Ideal) x0 x1 x2 x3 x7 = Cert.Gcn.hidden (val_main_v43 (F := Ideal) x0 x1 x7) b x3 := by
  funext i
  obtain ⟨r, j, rfl⟩ : ∃ (r : Fin 100000) (j : Fin 16), i = ix2 r j := ⟨i 0, i 1, eq_ix2 i⟩
  rw [val_main_v48_apply, Cert.Gcn.hidden_apply]
  refine Finset.sum_congr rfl fun k _ => ?_
  rw [show lidx_main_v48 (ix2 r j) k = ix2 r k from funext fun a => Fin.ext (by match a with | ⟨0, _⟩ => rfl | ⟨1, _⟩ => rfl),
      show ridx_main_v48 (ix2 r j) k = ix2 k j from funext fun a => Fin.ext (by match a with | ⟨0, _⟩ => rfl | ⟨1, _⟩ => rfl),
      val_main_v47_apply, val_main_v46_apply, val_main_v45_apply, val_main_v44_apply, val_main_call1_v0_apply, val_main_call1_cst_apply,
      show idx_main_v44 (idx_main_v45 (ix2 r k)) = ix1 k from funext fun a => Fin.ext (by match a with | ⟨0, _⟩ => rfl),
      ← hb k]
  rfl

/-! ## The second layer's output: relu of the aggregated messages plus the bias -/

theorem activate_eq (x0 : (⟨S100000x128, .f32⟩ : BufTy).Contents (Elt Ideal)) (x1 : (⟨S128x16, .f32⟩ : BufTy).Contents (Elt Ideal)) (x2 : (⟨S16, .f32⟩ : BufTy).Contents (Elt Ideal)) (x3 : (⟨S16x16, .f32⟩ : BufTy).Contents (Elt Ideal)) (x4 : (⟨S16, .f32⟩ : BufTy).Contents (Elt Ideal)) (x7 : (⟨S2x3200000, .i32⟩ : BufTy).Contents (Elt Ideal))
    (b : (⟨2, ![1, 16]⟩ : Shape).Idx → EReal) (hb : ∀ k : Fin 16, b (ix2 (0 : Fin 1) k) = x4 (ix1 k)) :
    val_main_v88 (F := Ideal) x0 x1 x2 x3 x4 x7 = Cert.Gcn.activate (val_main_v84 (F := Ideal) x0 x1 x2 x3 x7) b := by
  funext i
  obtain ⟨r, j, rfl⟩ : ∃ (r : Fin 100000) (j : Fin 16), i = ix2 r j := ⟨i 0, i 1, eq_ix2 i⟩
  rw [val_main_v88_apply, val_main_v87_apply, val_main_v86_apply, val_main_v85_apply, val_main_call3_v0_apply, val_main_call3_cst_apply,
      show idx_main_v85 (idx_main_v86 (ix2 r j)) = ix1 j from funext fun a => Fin.ext (by match a with | ⟨0, _⟩ => rfl),
      ← hb j, Cert.Gcn.activate_apply]
  rfl

/-! ## The graph scores: `1 / (1 + e^(-z))` of the pooled features' logit -/

theorem score_eq (x0 : (⟨S100000x128, .f32⟩ : BufTy).Contents (Elt Ideal)) (x1 : (⟨S128x16, .f32⟩ : BufTy).Contents (Elt Ideal)) (x2 : (⟨S16, .f32⟩ : BufTy).Contents (Elt Ideal)) (x3 : (⟨S16x16, .f32⟩ : BufTy).Contents (Elt Ideal)) (x4 : (⟨S16, .f32⟩ : BufTy).Contents (Elt Ideal)) (x5 : (⟨S16x1, .f32⟩ : BufTy).Contents (Elt Ideal)) (x6 : (⟨S1, .f32⟩ : BufTy).Contents (Elt Ideal)) (x7 : (⟨S2x3200000, .i32⟩ : BufTy).Contents (Elt Ideal)) (x8 : (⟨S100000, .i32⟩ : BufTy).Contents (Elt Ideal))
    (b : (⟨2, ![1, 1]⟩ : Shape).Idx → EReal) (hb : ∀ j : Fin 1, b (ix2 (0 : Fin 1) j) = x6 (ix1 j)) :
    val_main_v101 (F := Ideal) x0 x1 x2 x3 x4 x5 x6 x7 x8
      = Cert.Gcn.score (val_main_v91 (F := Ideal) x0 x1 x2 x3 x4 x7 x8) x5 b := by
  funext i
  obtain ⟨g, j, rfl⟩ : ∃ (g : Fin 1024) (j : Fin 1), i = ix2 g j := ⟨i 0, i 1, eq_ix2 i⟩
  have hsum : (∑ k : Fin 16, val_main_v91 (F := Ideal) x0 x1 x2 x3 x4 x7 x8 (lidx_main_v92 (ix2 g j) k) * x5 (ridx_main_v92 (ix2 g j) k))
      = ∑ k : Fin 16, val_main_v91 (F := Ideal) x0 x1 x2 x3 x4 x7 x8 (ix2 g k) * x5 (ix2 k j) :=
    Finset.sum_congr rfl fun k _ => by
      rw [show lidx_main_v92 (ix2 g j) k = ix2 g k from funext fun a => Fin.ext (by match a with | ⟨0, _⟩ => rfl | ⟨1, _⟩ => rfl),
          show ridx_main_v92 (ix2 g j) k = ix2 k j from funext fun a => Fin.ext (by match a with | ⟨0, _⟩ => rfl | ⟨1, _⟩ => rfl)]
  rw [val_main_v101_apply, val_main_v100_apply, val_main_cst_22_apply, val_main_v99_apply, val_main_v98_apply, val_main_cst_21_apply,
      val_main_v97_apply, val_main_v96_apply, val_main_v95_apply, val_main_v92_apply, val_main_v94_apply, val_main_v93_apply, hsum,
      show idx_main_v93 (idx_main_v94 (ix2 g j)) = ix1 j from funext fun a => Fin.ext (by
        match a with
        | ⟨0, _⟩ => show 0 = j.val; have := j.isLt; omega),
      ← hb j, Ideal.ofBits_def, Cert.Gcn.oneWord, Cert.Gcn.score_apply,
      Ideal.hostDivf_def, Ideal.addf_def, Ideal.hostUnary_exp_def, Ideal.hostNegf_def, Ideal.negf_def, Ideal.addf_def]
  unfold Ideal.logistic
  rfl

end Cert.ReferenceIdeal.Dense

end
-- ==== Proof.Bound.lean ====
/-
  The idealized kernel's buffers at every boundary of its run, as the reference's stages of the launched arguments.

  The run's boundaries are `W0` (launch), `W1 … W3` (after the host operations before the first kernel), `W4` (after the first kernel),
  `W5` (host operations), `W6` (second kernel), `W7`, `W8` (third kernel), `W9`, `W10` (last kernel). Going through them once:

    * the source list, the target list and the edge weight are computed before the first kernel and only read afterwards, so they are
      the reference's stages at every later boundary (no kernel and no later host operation writes them);
    * the first kernel's result is `project x W1`, the reference's first `dot_general`; the host operations after it aggregate it
      along the edges exactly as the reference does, giving the reference's first aggregated messages;
    * the second kernel's result is `hidden` of those, the bias row and `W2` — the reference's second `dot_general` of the relu —
      and the next host operations aggregate it again (the reference recomputes the edge weight for its second layer; it is the same
      term);
    * the third kernel's result is `activate` of the second aggregation and its bias row, the reference's second relu; the host
      pools it over the graph index as the reference does;
    * the last kernel's result is `score` of the pooled features, the reference's `1 / (1 + e^(-logit))`.

  A bias enters a kernel as a `[1, n]` row, the reshape of the bias vector; read at `(0, k)` it is the vector's entry `k`.
-/
import proofs.«143874_j25048249270599_1_alg».proof.Proof.Gen.KernelIdeal.Frame
import proofs.«143874_j25048249270599_1_alg».proof.Proof.Host
import proofs.«143874_j25048249270599_1_alg».proof.Proof.Blocks1
import proofs.«143874_j25048249270599_1_alg».proof.Proof.Blocks2
import proofs.«143874_j25048249270599_1_alg».proof.Proof.Blocks3
import proofs.«143874_j25048249270599_1_alg».proof.Proof.Bridge
import Idealize.ShloMosaic.Lib.ValueLayout

set_option maxRecDepth 16384

noncomputable section

namespace Cert.KernelIdeal.Bound

open Cert.KernelIdeal Cert.KernelIdeal.Gen Cert.KernelIdeal.Stretch Cert.ReferenceIdeal.ReadP
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-! ## The nine arguments as launched -/

abbrev x0 := m ((c.tc : Thread nD τ).loc main_arg0)
abbrev x1 := m ((c.tc : Thread nD τ).loc main_arg1)
abbrev x2 := m ((c.tc : Thread nD τ).loc main_arg2)
abbrev x3 := m ((c.tc : Thread nD τ).loc main_arg3)
abbrev x4 := m ((c.tc : Thread nD τ).loc main_arg4)
abbrev x5 := m ((c.tc : Thread nD τ).loc main_arg5)
abbrev x6 := m ((c.tc : Thread nD τ).loc main_arg6)
abbrev x7 := m ((c.tc : Thread nD τ).loc main_arg7)
abbrev x8 := m ((c.tc : Thread nD τ).loc main_arg8)

/-! ## Equal operands, equal stages -/

theorem project_congr {a a' : (⟨2, ![100000, 128]⟩ : Shape).Idx → EReal} {w w' : (⟨2, ![128, 16]⟩ : Shape).Idx → EReal}
    (ha : a = a') (hw : w = w') : Cert.Gcn.project a w = Cert.Gcn.project a' w' := by subst ha hw; rfl
theorem hidden_congr {a a' : (⟨2, ![100000, 16]⟩ : Shape).Idx → EReal} {b b' : (⟨2, ![1, 16]⟩ : Shape).Idx → EReal}
    {w w' : (⟨2, ![16, 16]⟩ : Shape).Idx → EReal} (ha : a = a') (hb : b = b') (hw : w = w') :
    Cert.Gcn.hidden a b w = Cert.Gcn.hidden a' b' w' := by subst ha hb hw; rfl
theorem activate_congr {a a' : (⟨2, ![100000, 16]⟩ : Shape).Idx → EReal} {b b' : (⟨2, ![1, 16]⟩ : Shape).Idx → EReal}
    (ha : a = a') (hb : b = b') : Cert.Gcn.activate a b = Cert.Gcn.activate a' b' := by subst ha hb; rfl
theorem score_congr {p p' : (⟨2, ![1024, 16]⟩ : Shape).Idx → EReal} {w w' : (⟨2, ![16, 1]⟩ : Shape).Idx → EReal}
    {b b' : (⟨2, ![1, 1]⟩ : Shape).Idx → EReal} (hp : p = p') (hw : w = w') (hb : b = b') :
    Cert.Gcn.score p w b = Cert.Gcn.score p' w' b' := by subst hp hw hb; rfl

/-! ## What each boundary keeps -/

theorem W1_keep {r : Ref sig .tc} (h : r ∉ (written0 : List (Ref sig .tc))) : W1 m ρ c (Proc.devRef .tc r) = W0 m ρ c (Proc.devRef .tc r) := keep0 (W0 m ρ c) h
theorem W2_keep {r : Ref sig .tc} (h : r ∉ (written01 : List (Ref sig .tc))) : W2 m ρ c (Proc.devRef .tc r) = W1 m ρ c (Proc.devRef .tc r) := keep01 (W1 m ρ c) h
theorem W3_keep {r : Ref sig .tc} (h : r ∉ (written02 : List (Ref sig .tc))) : W3 m ρ c (Proc.devRef .tc r) = W2 m ρ c (Proc.devRef .tc r) := keep02 (W2 m ρ c) h
theorem W5_keep {r : Ref sig .tc} (h : r ∉ (written1 : List (Ref sig .tc))) : W5 m ρ c (Proc.devRef .tc r) = W4 m ρ c (Proc.devRef .tc r) := keep1 (W4 m ρ c) h
theorem W7_keep {r : Ref sig .tc} (h : r ∉ (written2 : List (Ref sig .tc))) : W7 m ρ c (Proc.devRef .tc r) = W6 m ρ c (Proc.devRef .tc r) := keep2 (W6 m ρ c) h
theorem W9_keep {r : Ref sig .tc} (h : r ∉ (written3 : List (Ref sig .tc))) : W9 m ρ c (Proc.devRef .tc r) = W8 m ρ c (Proc.devRef .tc r) := keep3 (W8 m ρ c) h

/-- Through the three stretches before the first kernel. -/
theorem W3_keep3 {r : Ref sig .tc} (h0 : r ∉ (written0 : List (Ref sig .tc))) (h1 : r ∉ (written01 : List (Ref sig .tc)))
    (h2 : r ∉ (written02 : List (Ref sig .tc))) : W3 m ρ c (Proc.devRef .tc r) = W0 m ρ c (Proc.devRef .tc r) :=
  (W3_keep m ρ c h2).trans ((W2_keep m ρ c h1).trans (W1_keep m ρ c h0))

/-! ## Before the first kernel -/

theorem W1_v3 : W1 m ρ c (Proc.devRef .tc main_v3) = val_main_v3 (F := Ideal) (x7 m c) := s0_v3 (W0 m ρ c)
theorem W1_v6 : W1 m ρ c (Proc.devRef .tc main_v6) = val_main_v6 (F := Ideal) (x7 m c) := s0_v6 (W0 m ρ c)
theorem W1_v12 : W1 m ρ c (Proc.devRef .tc main_v12) = val_main_v13 (F := Ideal) (x7 m c) := s0_v12 (W0 m ρ c)
theorem W1_v13 : W1 m ρ c (Proc.devRef .tc main_v13) = val_main_v14 (F := Ideal) (x7 m c) := s0_v13 (W0 m ρ c)
theorem W1_cst2 : W1 m ρ c (Proc.devRef .tc main_cst_2) = val_main_cst_2 (F := Ideal) := s0_cst2 (W0 m ρ c)

theorem W2_v3 : W2 m ρ c (Proc.devRef .tc main_v3) = val_main_v3 (F := Ideal) (x7 m c) := (W2_keep m ρ c (by decide)).trans (W1_v3 m ρ c)
theorem W2_v6 : W2 m ρ c (Proc.devRef .tc main_v6) = val_main_v6 (F := Ideal) (x7 m c) := (W2_keep m ρ c (by decide)).trans (W1_v6 m ρ c)
theorem W2_v14 : W2 m ρ c (Proc.devRef .tc main_v14) = val_main_v15 (F := Ideal) (x7 m c) :=
  s01_v14 (W1 m ρ c) (x7 m c) (W1_v12 m ρ c) (W1_v13 m ρ c) (W1_cst2 m ρ c)

theorem W3_v3 : W3 m ρ c (Proc.devRef .tc main_v3) = val_main_v3 (F := Ideal) (x7 m c) := (W3_keep m ρ c (by decide)).trans (W2_v3 m ρ c)
theorem W3_v6 : W3 m ρ c (Proc.devRef .tc main_v6) = val_main_v6 (F := Ideal) (x7 m c) := (W3_keep m ρ c (by decide)).trans (W2_v6 m ρ c)
/-- The edge weight `dinv[src] · dinv[dst]`. -/
theorem W3_v29 : W3 m ρ c (Proc.devRef .tc main_v29) = val_main_v30 (F := Ideal) (x7 m c) :=
  s02_v29 (W2 m ρ c) (x7 m c) (W2_v3 m ρ c) (W2_v6 m ρ c) (W2_v14 m ρ c)

theorem W3_arg0 : W3 m ρ c (Proc.devRef .tc main_arg0) = x0 m c := W3_keep3 m ρ c (by decide) (by decide) (by decide)
theorem W3_arg1 : W3 m ρ c (Proc.devRef .tc main_arg1) = x1 m c := W3_keep3 m ρ c (by decide) (by decide) (by decide)
theorem W3_arg2 : W3 m ρ c (Proc.devRef .tc main_arg2) = x2 m c := W3_keep3 m ρ c (by decide) (by decide) (by decide)
theorem W3_arg3 : W3 m ρ c (Proc.devRef .tc main_arg3) = x3 m c := W3_keep3 m ρ c (by decide) (by decide) (by decide)
theorem W3_arg4 : W3 m ρ c (Proc.devRef .tc main_arg4) = x4 m c := W3_keep3 m ρ c (by decide) (by decide) (by decide)
theorem W3_arg5 : W3 m ρ c (Proc.devRef .tc main_arg5) = x5 m c := W3_keep3 m ρ c (by decide) (by decide) (by decide)
theorem W3_arg6 : W3 m ρ c (Proc.devRef .tc main_arg6) = x6 m c := W3_keep3 m ρ c (by decide) (by decide) (by decide)
theorem W3_arg8 : W3 m ρ c (Proc.devRef .tc main_arg8) = x8 m c := W3_keep3 m ρ c (by decide) (by decide) (by decide)

/-! ## The first kernel, and the first aggregation -/

/-- The first kernel's result is the reference's first product. -/
theorem W4_v30 : W4 m ρ c (Proc.devRef .tc main_v30) = val_main_v7 (F := Ideal) (x0 m c) (x1 m c) :=
  (W4_arr m ρ c 2).trans ((Blocks.array0 (V3 m ρ) c).trans
    ((project_congr (W3_arg0 m ρ c) (W3_arg1 m ρ c)).trans (Cert.ReferenceIdeal.Dense.project_eq (x0 m c) (x1 m c)).symm))

theorem W4_v3 : W4 m ρ c (Proc.devRef .tc main_v3) = val_main_v3 (F := Ideal) (x7 m c) := (W4_of_ne m ρ c main_v3 (by decide)).trans (W3_v3 m ρ c)
theorem W4_v6 : W4 m ρ c (Proc.devRef .tc main_v6) = val_main_v6 (F := Ideal) (x7 m c) := (W4_of_ne m ρ c main_v6 (by decide)).trans (W3_v6 m ρ c)
theorem W4_v29 : W4 m ρ c (Proc.devRef .tc main_v29) = val_main_v30 (F := Ideal) (x7 m c) := (W4_of_ne m ρ c main_v29 (by decide)).trans (W3_v29 m ρ c)
theorem W4_arg2 : W4 m ρ c (Proc.devRef .tc main_arg2) = x2 m c := (W4_of_ne m ρ c main_arg2 (by decide)).trans (W3_arg2 m ρ c)
theorem W4_arg3 : W4 m ρ c (Proc.devRef .tc main_arg3) = x3 m c := (W4_of_ne m ρ c main_arg3 (by decide)).trans (W3_arg3 m ρ c)
theorem W4_arg4 : W4 m ρ c (Proc.devRef .tc main_arg4) = x4 m c := (W4_of_ne m ρ c main_arg4 (by decide)).trans (W3_arg4 m ρ c)
theorem W4_arg5 : W4 m ρ c (Proc.devRef .tc main_arg5) = x5 m c := (W4_of_ne m ρ c main_arg5 (by decide)).trans (W3_arg5 m ρ c)
theorem W4_arg6 : W4 m ρ c (Proc.devRef .tc main_arg6) = x6 m c := (W4_of_ne m ρ c main_arg6 (by decide)).trans (W3_arg6 m ρ c)
theorem W4_arg8 : W4 m ρ c (Proc.devRef .tc main_arg8) = x8 m c := (W4_of_ne m ρ c main_arg8 (by decide)).trans (W3_arg8 m ρ c)

/-- The first layer's aggregated messages. -/
theorem W5_v43 : W5 m ρ c (Proc.devRef .tc main_v43) = val_main_v43 (F := Ideal) (x0 m c) (x1 m c) (x7 m c) :=
  s1_v43 (W4 m ρ c) (x0 m c) (x1 m c) (x7 m c) (W4_v3 m ρ c) (W4_v6 m ρ c) (W4_v29 m ρ c) (W4_v30 m ρ c)
/-- The first bias as one row. -/
theorem W5_v44 : W5 m ρ c (Proc.devRef .tc main_v44) = shapeCast S1x16 (x2 m c) shapeCasts_S16_S1x16 :=
  (s1_v44 (W4 m ρ c)).trans (congrArg (fun z => shapeCast S1x16 z shapeCasts_S16_S1x16) (W4_arg2 m ρ c))
theorem W5_v3 : W5 m ρ c (Proc.devRef .tc main_v3) = val_main_v3 (F := Ideal) (x7 m c) := (W5_keep m ρ c (by decide)).trans (W4_v3 m ρ c)
theorem W5_v6 : W5 m ρ c (Proc.devRef .tc main_v6) = val_main_v6 (F := Ideal) (x7 m c) := (W5_keep m ρ c (by decide)).trans (W4_v6 m ρ c)
theorem W5_v29 : W5 m ρ c (Proc.devRef .tc main_v29) = val_main_v30 (F := Ideal) (x7 m c) := (W5_keep m ρ c (by decide)).trans (W4_v29 m ρ c)
theorem W5_arg3 : W5 m ρ c (Proc.devRef .tc main_arg3) = x3 m c := (W5_keep m ρ c (by decide)).trans (W4_arg3 m ρ c)
theorem W5_arg4 : W5 m ρ c (Proc.devRef .tc main_arg4) = x4 m c := (W5_keep m ρ c (by decide)).trans (W4_arg4 m ρ c)
theorem W5_arg5 : W5 m ρ c (Proc.devRef .tc main_arg5) = x5 m c := (W5_keep m ρ c (by decide)).trans (W4_arg5 m ρ c)
theorem W5_arg6 : W5 m ρ c (Proc.devRef .tc main_arg6) = x6 m c := (W5_keep m ρ c (by decide)).trans (W4_arg6 m ρ c)
theorem W5_arg8 : W5 m ρ c (Proc.devRef .tc main_arg8) = x8 m c := (W5_keep m ρ c (by decide)).trans (W4_arg8 m ρ c)

/-! ## The second kernel, and the second aggregation -/

/-- A bias row read at `(0, k)` is the bias vector's entry `k`. -/
theorem row_apply (x : (⟨1, ![16]⟩ : Shape).Idx → EReal) (k : Fin 16) :
    shapeCast S1x16 x shapeCasts_S16_S1x16 (ix2 (0 : Fin 1) k) = x (ix1 k) :=
  shapeCast_a_1a_apply x shapeCasts_S16_S1x16 0 k

/-- The second kernel's result is the reference's second product (of the first layer's relu). -/
theorem W6_v45 : W6 m ρ c (Proc.devRef .tc main_v45) = val_main_v48 (F := Ideal) (x0 m c) (x1 m c) (x2 m c) (x3 m c) (x7 m c) :=
  (W6_arr m ρ c 3).trans ((Blocks.array1 (V5 m ρ) c).trans
    ((hidden_congr (W5_v43 m ρ c) (W5_v44 m ρ c) (W5_arg3 m ρ c)).trans
      (Cert.ReferenceIdeal.Dense.hidden_eq (x0 m c) (x1 m c) (x2 m c) (x3 m c) (x7 m c) _ (row_apply (x2 m c))).symm))

theorem W6_v3 : W6 m ρ c (Proc.devRef .tc main_v3) = val_main_v3 (F := Ideal) (x7 m c) := (W6_of_ne m ρ c main_v3 (by decide)).trans (W5_v3 m ρ c)
theorem W6_v6 : W6 m ρ c (Proc.devRef .tc main_v6) = val_main_v6 (F := Ideal) (x7 m c) := (W6_of_ne m ρ c main_v6 (by decide)).trans (W5_v6 m ρ c)
theorem W6_v29 : W6 m ρ c (Proc.devRef .tc main_v29) = val_main_v30 (F := Ideal) (x7 m c) := (W6_of_ne m ρ c main_v29 (by decide)).trans (W5_v29 m ρ c)
theorem W6_arg4 : W6 m ρ c (Proc.devRef .tc main_arg4) = x4 m c := (W6_of_ne m ρ c main_arg4 (by decide)).trans (W5_arg4 m ρ c)
theorem W6_arg5 : W6 m ρ c (Proc.devRef .tc main_arg5) = x5 m c := (W6_of_ne m ρ c main_arg5 (by decide)).trans (W5_arg5 m ρ c)
theorem W6_arg6 : W6 m ρ c (Proc.devRef .tc main_arg6) = x6 m c := (W6_of_ne m ρ c main_arg6 (by decide)).trans (W5_arg6 m ρ c)
theorem W6_arg8 : W6 m ρ c (Proc.devRef .tc main_arg8) = x8 m c := (W6_of_ne m ρ c main_arg8 (by decide)).trans (W5_arg8 m ρ c)

/-- The second layer's aggregated messages. -/
theorem W7_v58 : W7 m ρ c (Proc.devRef .tc main_v58) = val_main_v84 (F := Ideal) (x0 m c) (x1 m c) (x2 m c) (x3 m c) (x7 m c) :=
  s2_v58 (W6 m ρ c) (x0 m c) (x1 m c) (x2 m c) (x3 m c) (x7 m c) (W6_v3 m ρ c) (W6_v6 m ρ c) (W6_v29 m ρ c) (W6_v45 m ρ c)
theorem W7_v59 : W7 m ρ c (Proc.devRef .tc main_v59) = shapeCast S1x16 (x4 m c) shapeCasts_S16_S1x16 :=
  (s2_v59 (W6 m ρ c)).trans (congrArg (fun z => shapeCast S1x16 z shapeCasts_S16_S1x16) (W6_arg4 m ρ c))
theorem W7_arg5 : W7 m ρ c (Proc.devRef .tc main_arg5) = x5 m c := (W7_keep m ρ c (by decide)).trans (W6_arg5 m ρ c)
theorem W7_arg6 : W7 m ρ c (Proc.devRef .tc main_arg6) = x6 m c := (W7_keep m ρ c (by decide)).trans (W6_arg6 m ρ c)
theorem W7_arg8 : W7 m ρ c (Proc.devRef .tc main_arg8) = x8 m c := (W7_keep m ρ c (by decide)).trans (W6_arg8 m ρ c)

/-! ## The third kernel, and the pooling -/

/-- The third kernel's result is the reference's second relu. -/
theorem W8_v60 : W8 m ρ c (Proc.devRef .tc main_v60) = val_main_v88 (F := Ideal) (x0 m c) (x1 m c) (x2 m c) (x3 m c) (x4 m c) (x7 m c) :=
  (W8_arr m ρ c 2).trans ((Blocks.array2 (V7 m ρ) c).trans
    ((activate_congr (W7_v58 m ρ c) (W7_v59 m ρ c)).trans
      (Cert.ReferenceIdeal.Dense.activate_eq (x0 m c) (x1 m c) (x2 m c) (x3 m c) (x4 m c) (x7 m c) _ (row_apply (x4 m c))).symm))
theorem W8_arg5 : W8 m ρ c (Proc.devRef .tc main_arg5) = x5 m c := (W8_of_ne m ρ c main_arg5 (by decide)).trans (W7_arg5 m ρ c)
theorem W8_arg6 : W8 m ρ c (Proc.devRef .tc main_arg6) = x6 m c := (W8_of_ne m ρ c main_arg6 (by decide)).trans (W7_arg6 m ρ c)
theorem W8_arg8 : W8 m ρ c (Proc.devRef .tc main_arg8) = x8 m c := (W8_of_ne m ρ c main_arg8 (by decide)).trans (W7_arg8 m ρ c)

/-- The features pooled over each graph. -/
theorem W9_v63 : W9 m ρ c (Proc.devRef .tc main_v63) = val_main_v91 (F := Ideal) (x0 m c) (x1 m c) (x2 m c) (x3 m c) (x4 m c) (x7 m c) (x8 m c) :=
  s3_v63 (W8 m ρ c) (x0 m c) (x1 m c) (x2 m c) (x3 m c) (x4 m c) (x7 m c) (x8 m c) (W8_v60 m ρ c) (W8_arg8 m ρ c)
theorem W9_v64 : W9 m ρ c (Proc.devRef .tc main_v64) = shapeCast S1x1 (x6 m c) shapeCasts_S1_S1x1 :=
  (s3_v64 (W8 m ρ c)).trans (congrArg (fun z => shapeCast S1x1 z shapeCasts_S1_S1x1) (W8_arg6 m ρ c))
theorem W9_arg5 : W9 m ρ c (Proc.devRef .tc main_arg5) = x5 m c := (W9_keep m ρ c (by decide)).trans (W8_arg5 m ρ c)

/-! ## The last kernel -/

theorem entry_apply (x : (⟨1, ![1]⟩ : Shape).Idx → EReal) (j : Fin 1) :
    shapeCast S1x1 x shapeCasts_S1_S1x1 (ix2 (0 : Fin 1) j) = x (ix1 j) :=
  shapeCast_a_1a_apply x shapeCasts_S1_S1x1 0 j

/-- THE RESULT: the 1024 graph scores the idealized kernel ends with are the reference's last stage of the launched arguments. -/
theorem result : W10 m ρ c (Proc.devRef .tc main_v65)
    = val_main_v101 (F := Ideal) (x0 m c) (x1 m c) (x2 m c) (x3 m c) (x4 m c) (x5 m c) (x6 m c) (x7 m c) (x8 m c) :=
  (W10_arr m ρ c 3).trans ((Blocks.array3 (V9 m ρ) c).trans
    ((score_congr (W9_v63 m ρ c) (W9_arg5 m ρ c) (W9_v64 m ρ c)).trans
      (Cert.ReferenceIdeal.Dense.score_eq (x0 m c) (x1 m c) (x2 m c) (x3 m c) (x4 m c) (x5 m c) (x6 m c) (x7 m c) (x8 m c) _ (entry_apply (x6 m c))).symm))

end Cert.KernelIdeal.Bound

end
-- ==== Proof.lean ====
/-
  A two-layer graph convolution with graph pooling, as a tiled accelerator program against its plain array-language reference,
  over the extended reals.

  Both programs compute, for node features `x`, weights `W1`, `W2`, `fc_w`, biases `b1`, `b2`, `fc_b`, an edge list and a
  graph index:

      norm   = dinv[src] · dinv[dst],  dinv = where (deg > 0) (rsqrt deg) 0,  deg = the number of edges into a node (self-loops added)
      agg h  = scatter-add at dst of  h[src] · norm
      out    = logistic ( pool ( relu (agg (relu (agg (x·W1) + b1) · W2) + b2) ) · fc_w + fc_b )

  The tiled program runs the four dense stages — `x·W1`; `relu (· + b1)·W2`; `relu (· + b2)`; `logistic (··fc_w + fc_b)` — as kernels over
  blocks of 10000 node rows (the last over one block of 1024 graphs), and everything indexed by an edge or by the graph index
  (the gathers, the scatter-adds, the degree and its reciprocal square root) as the very host operations the reference applies.
  The reference places the bias additions and the relus on the host and spells the logistic function `1 / (1 + e^(-z))`.

  Over the extended reals a change of float format is the identity and a matrix product accumulated into zeros is the plain sum over
  the contracted axis, so each kernel's blocks are the restrictions of ONE whole-array function, equal to the reference's dense stage;
  the edge-indexed operations are the same terms on both sides and are never opened. No sum is re-associated and no factor is moved
  across a sum, so the claim holds for every extended-real input: finiteness of the inputs is not used.

  The modules: `Spec` (the four dense stages as functions), `Payload` (what each kernel body stores, at an index), `Blocks0…3` (a kernel's
  blocks tile its result array), `Host` (the host operations between the kernels, stretch by stretch), `Bridge` (the reference's dense
  stages are the specification's), `Bound` (the kernel's buffers at every boundary of its run are the reference's stages), `KRun` (the
  kernel's whole run with its result named), and `RefRun` / `RefRead` (the reference's run and its stages).
-/
import proofs.«143874_j25048249270599_1_alg».proof.Defs
import proofs.«143874_j25048249270599_1_alg».proof.Proof.Gen.Kernel
import proofs.«143874_j25048249270599_1_alg».proof.Proof.Gen.Kernel.Frame
import proofs.«143874_j25048249270599_1_alg».proof.Proof.Gen.KernelIdeal
import proofs.«143874_j25048249270599_1_alg».proof.Proof.Gen.KernelIdeal.Frame
import proofs.«143874_j25048249270599_1_alg».proof.Proof.Gen.ReferenceIdeal
import proofs.«143874_j25048249270599_1_alg».proof.Proof.Gen.Pre_finite_inputs
import proofs.«143874_j25048249270599_1_alg».proof.Proof.RefRun
import proofs.«143874_j25048249270599_1_alg».proof.Proof.RefRead
import proofs.«143874_j25048249270599_1_alg».proof.Proof.KRun
import proofs.«143874_j25048249270599_1_alg».proof.Proof.Bound
import Idealize.ShloMosaic.Adequacy
import Idealize.ShloMosaic.Init

set_option maxRecDepth 16384

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation of the kernel. -/
theorem preserves : Cert.preserves_Kernel_KernelIdeal := trivial

/-- From memories that agree on the nine arguments both programs end with the same 1024 graph scores: the reference's last stage of
    the arguments — the kernel's by `Bound.result`, the reference's by its run. -/
theorem algebraic : Cert.algebraic_KernelIdeal_ReferenceIdeal := by
  intro m ρ m' ρ' _ hagree
  refine ⟨fun c => Cert.ReferenceIdeal.ReadP.val_main_v101 (F := Ideal) (Cert.KernelIdeal.Bound.x0 m c) (Cert.KernelIdeal.Bound.x1 m c) (Cert.KernelIdeal.Bound.x2 m c) (Cert.KernelIdeal.Bound.x3 m c) (Cert.KernelIdeal.Bound.x4 m c) (Cert.KernelIdeal.Bound.x5 m c) (Cert.KernelIdeal.Bound.x6 m c) (Cert.KernelIdeal.Bound.x7 m c) (Cert.KernelIdeal.Bound.x8 m c), ?_, ?_⟩
  · exact (θ_run Cert.KernelIdeal.defs _ _).mono
      (fun r h c => ⟨(h c).1.trans (Cert.KernelIdeal.Bound.result m ρ c), (h c).2⟩)
      (Cert.KernelIdeal.Whole.run (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8⟩ := hagree c
    rw [Cert.ReferenceIdeal.ReadP.val_main_v101_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
